-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x262144 : Shape := ⟨2, ![4, 262144]⟩
abbrev S4x33x262144 : Shape := ⟨3, ![4, 33, 262144]⟩
abbrev S_ : Shape := ⟨0, ![]⟩

class Facts : Prop where
  bcast_S_S4x262144 : S_.BroadcastsInDim S4x262144 (![] : Fin 0 → Fin S4x262144.rank)
  reducesTo_S4x262144_S_d0_1 : S4x262144.ReducesTo [0, 1] S_
  h_S_ : 0 < S_.numel
  bcast_S_S4x33x262144 : S_.BroadcastsInDim S4x33x262144 (![] : Fin 0 → Fin S4x33x262144.rank)
  reducesTo_S4x33x262144_S_d0_1_2 : S4x33x262144.ReducesTo [0, 1, 2] S_
  reducesTo_S_S_d : S_.ReducesTo [] S_

variable [Facts]

def fn {F : FTy → Type} [FloatOps F] (main_arg0 : FVec F S4x262144 .f32) (main_arg1 : FVec F S4x33x262144 .f32) (main_arg2 : IVec S_ 32) : IVec S_ 1 :=
  let main_v0 : FVec F S4x262144 .f32 := Host.absf main_arg0
  let main_cst : FVec F S_ .f32 := constant S_ .f32 0x7F800000#32
  let main_v1 : FVec F S4x262144 .f32 := broadcastInDim S4x262144 ![] bcast_S_S4x262144 main_cst
  let main_v2 : IVec S4x262144 1 := cmpf .olt main_v0 main_v1
  let main_c : IVec S_ 1 := constantI S_ 1 1#1
  let main_v3 : IVec S_ 1 := (fun x v => Host.reduce IntOp.andi x v reducesTo_S4x262144_S_d0_1 h_S_) main_v2 main_c
  let main_v4 : FVec F S4x33x262144 .f32 := Host.absf main_arg1
  let main_cst_0 : FVec F S_ .f32 := constant S_ .f32 0x7F800000#32
  let main_v5 : FVec F S4x33x262144 .f32 := broadcastInDim S4x33x262144 ![] bcast_S_S4x33x262144 main_cst_0
  let main_v6 : IVec S4x33x262144 1 := cmpf .olt main_v4 main_v5
  let main_c_1 : IVec S_ 1 := constantI S_ 1 1#1
  let main_v7 : IVec S_ 1 := (fun x v => Host.reduce IntOp.andi x v reducesTo_S4x33x262144_S_d0_1_2 h_S_) main_v6 main_c_1
  let main_v8 : IVec S_ 1 := andi main_v3 main_v7
  let main_c_2 : IVec S_ 32 := constantI S_ 32 7#32
  let main_v9 : IVec S_ 1 := cmpi .sge main_arg2 main_c_2
  let main_c_3 : IVec S_ 32 := constantI S_ 32 7#32
  let main_v10 : IVec S_ 1 := cmpi .sle main_arg2 main_c_3
  let main_v11 : IVec S_ 1 := andi main_v9 main_v10
  let main_c_4 : IVec S_ 1 := constantI S_ 1 1#1
  let main_v12 : IVec S_ 1 := (fun x v => Host.reduce IntOp.andi x v reducesTo_S_S_d h_S_) main_v11 main_c_4
  let main_v13 : IVec S_ 1 := andi main_v8 main_v12
  main_v13
-- ==== Kernel.lean ====
abbrev S4x262144 : Shape := ⟨2, ![4, 262144]⟩
abbrev S4x33x262144 : Shape := ⟨3, ![4, 33, 262144]⟩
abbrev S_ : Shape := ⟨0, ![]⟩
abbrev S1 : Shape := ⟨1, ![1]⟩
abbrev S4x33x2048x128 : Shape := ⟨4, ![4, 33, 2048, 128]⟩
abbrev S33x2048x4x128 : Shape := ⟨4, ![33, 2048, 4, 128]⟩
abbrev S2048x4x128 : Shape := ⟨3, ![2048, 4, 128]⟩
abbrev S16 : Shape := ⟨1, ![16]⟩
abbrev S32x4x128 : Shape := ⟨3, ![32, 4, 128]⟩
abbrev S1x32x4x128 : Shape := ⟨4, ![1, 32, 4, 128]⟩
abbrev S4x2048x128 : Shape := ⟨3, ![4, 2048, 128]⟩

abbrev nBuf : Table → Nat
  | .hbm => 9
  | .local .scVector .vmem => 3
  | _ => 0

abbrev bufTy : (tb : Table) → Fin (nBuf tb) → BufTy
  | .hbm, ⟨0, _⟩ => ⟨S4x262144, .f32⟩
  | .hbm, ⟨1, _⟩ => ⟨S4x33x262144, .f32⟩
  | .hbm, ⟨2, _⟩ => ⟨S_, .i32⟩
  | .hbm, ⟨3, _⟩ => ⟨S1, .i32⟩
  | .hbm, ⟨4, _⟩ => ⟨S4x33x2048x128, .f32⟩
  | .hbm, ⟨5, _⟩ => ⟨S33x2048x4x128, .f32⟩
  | .hbm, ⟨6, _⟩ => ⟨S2048x4x128, .f32⟩
  | .hbm, ⟨7, _⟩ => ⟨S4x2048x128, .f32⟩
  | .hbm, ⟨8, _⟩ => ⟨S4x262144, .f32⟩
  | .local .scVector .vmem, ⟨0, _⟩ => ⟨S16, .i32⟩
  | .local .scVector .vmem, ⟨1, _⟩ => ⟨S32x4x128, .f32⟩
  | .local .scVector .vmem, ⟨2, _⟩ => ⟨S32x4x128, .f32⟩
  | _, _ => ⟨S4x262144, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 3, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (v6 : BitVec 32) : Fin 4 → Nat :=
  let c2_i32_0 : BitVec 32 := 2#32
  let v7 : BitVec 32 := Scalar.addi v6 c2_i32_0
  let c33_i32 : BitVec 32 := 33#32
  let c0_i32 : BitVec 32 := 0#32
  let v8 : BitVec 1 := Scalar.cmpi .eq c33_i32 c0_i32
  let c1_i32 : BitVec 32 := 1#32
  let v9 : BitVec 32 := Scalar.select v8 c1_i32 c33_i32
  let v10 : BitVec 32 := Scalar.remsi v7 v9
  let c0_i32_2 : BitVec 32 := 0#32
  let v12 : BitVec 1 := Scalar.cmpi .slt v10 c0_i32_2
  let c0_i32_3 : BitVec 32 := 0#32
  let v13 : BitVec 1 := Scalar.cmpi .slt v9 c0_i32_3
  let v14 : BitVec 1 := Scalar.xori v12 v13
  let c0_i32_1 : BitVec 32 := 0#32
  let v11 : BitVec 1 := Scalar.cmpi .ne v10 c0_i32_1
  let v15 : BitVec 1 := Scalar.andi v14 v11
  let v16 : BitVec 32 := Scalar.addi v10 v9
  let v17 : BitVec 32 := Scalar.select v15 v16 v10
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_4 : BitVec 32 := 0#32
  let c0_i32_5 : BitVec 32 := 0#32
  ![v17.toNat, v2.toNat, 0, 0]

def k0_off2 (i : grid0.Coords) (v6 : BitVec 32) : Fin 4 → Nat :=
  let c2_i32_0 : BitVec 32 := 2#32
  let v7 : BitVec 32 := Scalar.addi v6 c2_i32_0
  let c33_i32 : BitVec 32 := 33#32
  let c0_i32 : BitVec 32 := 0#32
  let v8 : BitVec 1 := Scalar.cmpi .eq c33_i32 c0_i32
  let c1_i32 : BitVec 32 := 1#32
  let v9 : BitVec 32 := Scalar.select v8 c1_i32 c33_i32
  let v10 : BitVec 32 := Scalar.remsi v7 v9
  let c0_i32_2 : BitVec 32 := 0#32
  let v12 : BitVec 1 := Scalar.cmpi .slt v10 c0_i32_2
  let c0_i32_3 : BitVec 32 := 0#32
  let v13 : BitVec 1 := Scalar.cmpi .slt v9 c0_i32_3
  let v14 : BitVec 1 := Scalar.xori v12 v13
  let c0_i32_1 : BitVec 32 := 0#32
  let v11 : BitVec 1 := Scalar.cmpi .ne v10 c0_i32_1
  let v15 : BitVec 1 := Scalar.andi v14 v11
  let v16 : BitVec 32 := Scalar.addi v10 v9
  let v17 : BitVec 32 := Scalar.select v15 v16 v10
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32 : BitVec 32 := 32#32
  let v22 : BitVec 32 := Scalar.addi v2 c32_i32
  let c0_i32_8 : BitVec 32 := 0#32
  let c0_i32_9 : BitVec 32 := 0#32
  ![v17.toNat, v22.toNat, 0, 0]

def k0_chk1 (i : grid0.Coords) (v6 : BitVec 32) : Prop :=
  (∀ a, (k0_off1 i v6) a + S1x32x4x128.size a ≤ S33x2048x4x128.size a) ∧
  (∀ a, (k0_off2 i v6) a + S1x32x4x128.size a ≤ S33x2048x4x128.size a)
instance k0_chk1.dec : ∀ (i : grid0.Coords) (v6 : BitVec 32), Decidable (k0_chk1 i v6) := fun i v6 => decidable_of_iff' _ (Iff.of_eq (k0_chk1.eq_1 i v6))
theorem k0_off1_inb : ∀ (i : grid0.Coords) (v6 : BitVec 32) (k0_hw1 : k0_chk1 i v6), ∀ a, (k0_off1 i v6) a + S1x32x4x128.size a ≤ S33x2048x4x128.size a := fun i v6 k0_hw1 => k0_hw1.1
theorem k0_off2_inb : ∀ (i : grid0.Coords) (v6 : BitVec 32) (k0_hw1 : k0_chk1 i v6), ∀ a, (k0_off2 i v6) a + S1x32x4x128.size a ≤ S33x2048x4x128.size a := fun i v6 k0_hw1 => k0_hw1.2

def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_16 : BitVec 32 := 0#32
  let c0_i32_17 : BitVec 32 := 0#32
  ![v2.toNat, 0, 0]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_24 : BitVec 32 := 32#32
  let v37 : BitVec 32 := Scalar.addi v2 c32_i32_24
  let c0_i32_25 : BitVec 32 := 0#32
  let c0_i32_26 : BitVec 32 := 0#32
  ![v37.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S_S1 : S_.ShapeCasts S1
  shapeCasts_S4x33x262144_S4x33x2048x128 : S4x33x262144.ShapeCasts S4x33x2048x128
  transposes_S4x33x2048x128_S33x2048x4x128_1_2_0_3 : S4x33x2048x128.Transposes [1, 2, 0, 3] S33x2048x4x128
  inb_S16_S1_0 : ∀ a, (![0] : Fin 1 → Nat) a + S1.size a ≤ S16.size a
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  squeezes_S1x32x4x128_S32x4x128 : S1x32x4x128.Squeezes S32x4x128
  transposes_S2048x4x128_S4x2048x128_1_0_2 : S2048x4x128.Transposes [1, 0, 2] S4x2048x128
  shapeCasts_S4x2048x128_S4x262144 : S4x2048x128.ShapeCasts S4x262144
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off3_inb : ∀ i : grid0.Coords, ∀ a, (k0_off3 i) a + S32x4x128.size a ≤ S2048x4x128.size a
  k0_off4_inb : ∀ i : grid0.Coords, ∀ a, (k0_off4 i) a + S32x4x128.size a ≤ S2048x4x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S4x262144 : Shape := ⟨2, ![4, 262144]⟩
abbrev S4x33x262144 : Shape := ⟨3, ![4, 33, 262144]⟩
abbrev S_ : Shape := ⟨0, ![]⟩
abbrev S1 : Shape := ⟨1, ![1]⟩
abbrev S4x1x262144 : Shape := ⟨3, ![4, 1, 262144]⟩

abbrev nBuf : Space → Nat
  | .hbm => 88
  | .vmem => 0
  | .smem => 0
  | _ => 0

abbrev bufTy : (tb : Table) → Fin (tcTables nBuf tb) → BufTy
  | .hbm, ⟨0, _⟩ => ⟨S4x262144, .f32⟩
  | .hbm, ⟨1, _⟩ => ⟨S4x33x262144, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i1⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S4x33x262144, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i1⟩
  | .hbm, ⟨42, _⟩ => ⟨S_, .i1⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i1⟩
  | .hbm, ⟨61, _⟩ => ⟨S_, .i1⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S4x1x262144, .f32⟩
  | .hbm, ⟨87, _⟩ => ⟨S4x262144, .f32⟩
  | _, _ => ⟨S4x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_c_1 : Ref sig .tc := ⟨.hbm, 10, rfl⟩
abbrev main_call0_v4 : Ref sig .tc := ⟨.hbm, 11, rfl⟩
abbrev main_call0_c_2 : Ref sig .tc := ⟨.hbm, 12, rfl⟩
abbrev main_call0_v5 : Ref sig .tc := ⟨.hbm, 13, rfl⟩
abbrev main_call0_c_3 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v0 : Ref sig .tc := ⟨.hbm, 19, rfl⟩
abbrev main_c_0 : Ref sig .tc := ⟨.hbm, 20, rfl⟩
abbrev main_v1 : Ref sig .tc := ⟨.hbm, 21, rfl⟩
abbrev main_c_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c_2 : Ref sig .tc := ⟨.hbm, 27, rfl⟩
abbrev main_v6 : Ref sig .tc := ⟨.hbm, 28, rfl⟩
abbrev main_c_3 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_c_1 : Ref sig .tc := ⟨.hbm, 36, rfl⟩
abbrev main_call1_v4 : Ref sig .tc := ⟨.hbm, 37, rfl⟩
abbrev main_call1_c_2 : Ref sig .tc := ⟨.hbm, 38, rfl⟩
abbrev main_call1_v5 : Ref sig .tc := ⟨.hbm, 39, rfl⟩
abbrev main_call1_c_3 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_v7 : Ref sig .tc := ⟨.hbm, 45, rfl⟩
abbrev main_c_4 : Ref sig .tc := ⟨.hbm, 46, rfl⟩
abbrev main_v8 : Ref sig .tc := ⟨.hbm, 47, rfl⟩
abbrev main_c_5 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_c_1 : Ref sig .tc := ⟨.hbm, 55, rfl⟩
abbrev main_call2_v4 : Ref sig .tc := ⟨.hbm, 56, rfl⟩
abbrev main_call2_c_2 : Ref sig .tc := ⟨.hbm, 57, rfl⟩
abbrev main_call2_v5 : Ref sig .tc := ⟨.hbm, 58, rfl⟩
abbrev main_call2_c_3 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_v9 : Ref sig .tc := ⟨.hbm, 64, rfl⟩
abbrev main_c_6 : Ref sig .tc := ⟨.hbm, 65, rfl⟩
abbrev main_c_7 : Ref sig .tc := ⟨.hbm, 66, rfl⟩
abbrev main_v10 : Ref sig .tc := ⟨.hbm, 67, rfl⟩
abbrev main_c_8 : Ref sig .tc := ⟨.hbm, 68, rfl⟩
abbrev main_c_9 : Ref sig .tc := ⟨.hbm, 69, rfl⟩
abbrev main_v11 : Ref sig .tc := ⟨.hbm, 70, rfl⟩
abbrev main_c_10 : Ref sig .tc := ⟨.hbm, 71, rfl⟩
abbrev main_v12 : Ref sig .tc := ⟨.hbm, 72, rfl⟩
abbrev main_c_11 : Ref sig .tc := ⟨.hbm, 73, rfl⟩
abbrev main_v13 : Ref sig .tc := ⟨.hbm, 74, rfl⟩
abbrev main_c_12 : Ref sig .tc := ⟨.hbm, 75, rfl⟩
abbrev main_v14 : Ref sig .tc := ⟨.hbm, 76, rfl⟩
abbrev main_v15 : Ref sig .tc := ⟨.hbm, 77, rfl⟩
abbrev main_c_13 : Ref sig .tc := ⟨.hbm, 78, rfl⟩
abbrev main_c_14 : Ref sig .tc := ⟨.hbm, 79, rfl⟩
abbrev main_v16 : Ref sig .tc := ⟨.hbm, 80, rfl⟩
abbrev main_c_15 : Ref sig .tc := ⟨.hbm, 81, rfl⟩
abbrev main_c_16 : Ref sig .tc := ⟨.hbm, 82, rfl⟩
abbrev main_v17 : Ref sig .tc := ⟨.hbm, 83, rfl⟩
abbrev main_c_17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩

abbrev nD : Nat := 1
abbrev τ : Topo := Topo.v7x

variable {F : FTy → Type} [FloatOps F]

class Facts₀ : Prop where
  bcast_S_S1 : S_.BroadcastsInDim S1 (![] : Fin 0 → Fin S1.rank)
  sliceFits_S4x33x262144_S4x1x262144 : S4x33x262144.Slices (fun _ => 0) S4x1x262144
  h_S_ : 0 < S_.numel
  shapeCasts_S4x1x262144_S4x262144 : S4x1x262144.ShapeCasts S4x262144
  scatter_S4x33x262144_S1_S4x262144_01_1_1_0_wf : ScatterDims.WF S4x33x262144 S1 S4x262144 [0, 1] [1] [1] 0

variable [Facts₀]

def scatter_S4x33x262144_S1_S4x262144_01_1_1_0 : ScatterDims S4x33x262144 S1 S4x262144 where
  updateWindowDims := [0, 1]
  insertedWindowDims := [1]
  scatterDimsToOperandDims := [1]
  indexVectorDim := 0
  wf := scatter_S4x33x262144_S1_S4x262144_01_1_1_0_wf

class Facts : Prop extends Facts₀ where

variable [Facts]
-- ==== Proof.PrePtr.lean ====
/-
  The precondition pins the pointer. The input-domain predicate is the conjunction of two finiteness tests on the
  float inputs and of all((ptr ≥ 7) ∧ (ptr ≤ 7)), both comparisons signed, the "all" being a reduce by "and" over no
  axes of a rank-0 array. When the predicate is 1 the last conjunct is 1, so its only element is 1, so 7 ≤ ptr ≤ 7
  read signed, so the word ptr is 7. The float part is never looked at: the statement holds for every float model.
-/
import proofs.«203186_g146028888480_cont_week2b_1412_22_alg».proof.Proof.Gen.Pre_input_domain
import Idealize.ShloMosaic.Lib.ReduceAll

namespace Cert.PrePtr

open Idealize.ShloMosaic

/-- A 32-bit word lying between 7 and 7, read signed, is the word 7. -/
theorem eq_seven_of_toInt {x : BitVec 32} (h1 : (7#32 : BitVec 32).toInt ≤ x.toInt)
    (h2 : x.toInt ≤ (7#32 : BitVec 32).toInt) : x = 7#32 :=
  BitVec.eq_of_toInt_eq (Int.le_antisymm h2 h1)

/-- If the input-domain predicate holds, the pointer is 7. -/
theorem ptr_eq {F : FTy → Type} [FloatOps F]
    (a0 : FVec F Cert.Pre_input_domain.S4x262144 .f32) (a1 : FVec F Cert.Pre_input_domain.S4x33x262144 .f32) (a2 : IVec Cert.Pre_input_domain.S_ 32)
    (h : Cert.Pre_input_domain.fn (F := F) a0 a1 a2 = fun _ => 1#1) : a2 = fun _ => 7#32 := by
  -- a rank-0 array has exactly one index
  haveI : Subsingleton Cert.Pre_input_domain.S_.Idx := ⟨fun a b => funext fun d => d.elim0⟩
  funext i
  have h0 := congrFun h i
  dsimp only [Cert.Pre_input_domain.fn] at h0
  -- the outer conjunction: keep the integer conjunct only
  obtain ⟨-, h12⟩ := IntOp.andi_eq_one.1 h0
  -- a reduce by "and" that is 1 met only 1s
  have h11 := Host.reduce_andi_all _ _ _ _ i h12 i
  -- the inner conjunction: ptr ≥ 7 and ptr ≤ 7
  obtain ⟨hge, hle⟩ := IntOp.andi_eq_one.1 h11
  exact eq_seven_of_toInt (IntOp.cmpi_sge.1 hge) (IntOp.cmpi_sle.1 hle)

end Cert.PrePtr
-- ==== Proof.Spec.lean ====
/-
  The function both programs compute. The ring buffer holds, for each of 4 sources, 33 time planes of 262144 values.
  The reference overwrites plane (ptr mod 33) with the new spikes and then returns plane ((ptr + 1) mod 33 - 32) mod 33,
  which is plane (ptr + 2) mod 33: two planes ahead of the one just written, so the overwrite is never read back.
  The kernel returns plane (ptr + 2) mod 33 of the ring as it was given. At ptr = 7 both are plane 9.
  Stated here over literal shapes and for any element type, so that the word-level program, the idealized program
  and the reference can all be read against the one function.
-/
import Idealize.ShloMosaic.Lib.ValueIdx

namespace Cert.Spec

open Idealize.ShloMosaic

/-- The ring: 4 sources × 33 planes × 262144 positions. -/
abbrev Ring : Shape := ⟨3, ![4, 33, 262144]⟩
/-- One plane: 4 sources × 262144 positions. -/
abbrev Plane : Shape := ⟨2, ![4, 262144]⟩
/-- The ring as the SparseCore call is handed it: plane, row block of 128 positions, source, lane. -/
abbrev RingTiled : Shape := ⟨4, ![33, 2048, 4, 128]⟩
/-- One plane as the SparseCore call leaves it: row block, source, lane. -/
abbrev PlaneTiled : Shape := ⟨3, ![2048, 4, 128]⟩

/-- The plane read at ptr = 7: plane 9. -/
abbrev slot : Fin 33 := 9

/-- The result: entry (a, k) is the ring's entry (a, 9, k). -/
def delayed {α : Type} (buffer : Ring.Idx → α) : Plane.Idx → α :=
  fun i => buffer (ValueIdx.ix3 (n0 := 4) (n1 := 33) (n2 := 262144) (i 0) slot (i 1))

/-- What the SparseCore call writes, in its own layout: entry (b, a, l) is the tiled ring's entry (9, b, a, l). -/
def planeOf {α : Type} (ring : RingTiled.Idx → α) : PlaneTiled.Idx → α :=
  fun j => ring (ValueIdx.ix4 (n0 := 33) (n1 := 2048) (n2 := 4) (n3 := 128) slot (j 0) (j 1) (j 2))

theorem delayed_apply {α : Type} (buffer : Ring.Idx → α) (a : Fin 4) (k : Fin 262144) :
    delayed buffer (ValueIdx.ix2 a k) = buffer (ValueIdx.ix3 a slot k) := rfl

theorem planeOf_apply {α : Type} (ring : RingTiled.Idx → α) (b : Fin 2048) (a : Fin 4) (l : Fin 128) :
    planeOf ring (ValueIdx.ix3 b a l) = ring (ValueIdx.ix4 slot b a l) := rfl

end Cert.Spec
-- ==== Proof.OutRowsBits.lean ====
/-
  The rows of the output the subcores write. The output array has 2048 row blocks (axis 0), each 4 × 128.
  The subcore at grid coordinates L = (c, s), c below 2 and s below 16, writes two rectangles, all of axes 1 and 2:
  rows [128 s + 64 c, +32) and rows [128 s + 64 c + 32, +32). With p = 4 s + 2 c + h (h the half, 0 or 1) these are
  the 64 consecutive blocks [32 p, 32 p + 32) of the 2048 rows: pairwise disjoint, and together all rows.
  Membership is read off the rectangle (a row bound only, the other two axes being whole); disjointness and the cover
  are then arithmetic on the row number r: s = r / 128, c = (r / 64) mod 2.
-/
import proofs.«203186_g146028888480_cont_week2b_1412_22_alg».proof.Proof.Gen.Kernel
import Idealize.ShloMosaic.Lib.Pipeline.Value

noncomputable section

open Cert.Kernel Idealize.ShloMosaic

namespace Cert.Kernel.Rows

/-- The whole output array, as the subcores are handed it. -/
abbrev oW : Memref sig .scVector .hbm S2048x4x128 .f32 := Memref.whole main_v3_scv
/-- The first rectangle subcore L writes. -/
abbrev outA (L : grid0.Coords) : Memref sig .scVector .hbm S32x4x128 .f32 :=
  (oW).slice (Rect.unit (s := S2048x4x128) (k0_off3 L) S32x4x128.size (Facts₀.k0_off3_inb L)) (fun _ => rfl)
/-- The second rectangle subcore L writes. -/
abbrev outB (L : grid0.Coords) : Memref sig .scVector .hbm S32x4x128 .f32 :=
  (oW).slice (Rect.unit (s := S2048x4x128) (k0_off4 L) S32x4x128.size (Facts₀.k0_off4_inb L)) (fun _ => rfl)
/-- The grid coordinates of core c, subcore s. -/
def coordsV (c : Fin (grid0.bound 0)) (s : Fin (grid0.bound 1)) : grid0.Coords :=
  fun | 0 => c | 1 => s | ⟨_ + 2, h⟩ => absurd h (Nat.not_lt.2 (Nat.le_add_left _ _))
/-- The elements of the output under the first rectangle. -/
abbrev rowsA (L : grid0.Coords) : Finset S2048x4x128.Idx := (outA L).view.set
/-- The elements of the output under the second rectangle. -/
abbrev rowsB (L : grid0.Coords) : Finset S2048x4x128.Idx := (outB L).view.set
/-- The elements of the output one subcore writes. -/
abbrev rowsT (x : Fin (grid0.bound 0) × Fin (grid0.bound 1)) : Finset S2048x4x128.Idx :=
  rowsA (coordsV x.1 x.2) ∪ rowsB (coordsV x.1 x.2)

/-- A unit rectangle of 32 row blocks from row o, whole on the other two axes, holds exactly the indices whose row
    is in [o, o + 32). -/
theorem mem_unit_rows (o : Nat) (inb : ∀ a, (![o, 0, 0] : Fin 3 → Nat) a + S32x4x128.size a ≤ S2048x4x128.size a)
    (j : S2048x4x128.Idx) :
    j ∈ (Rect.unit (s := S2048x4x128) ![o, 0, 0] S32x4x128.size inb).set ↔ o ≤ (j 0).val ∧ (j 0).val < o + 32 := by
  rw [Rect.mem_set_unit]
  constructor
  · intro h
    exact h 0
  · intro h a
    match a with
    | ⟨0, _⟩ => exact h
    | ⟨1, _⟩ =>
      have h1 : (j 1).val < 4 := (j 1).isLt
      exact ⟨Nat.zero_le _, by show (j 1).val < 0 + 4; omega⟩
    | ⟨2, _⟩ =>
      have h2 : (j 2).val < 128 := (j 2).isLt
      exact ⟨Nat.zero_le _, by show (j 2).val < 0 + 128; omega⟩

/-- A unit rectangle at an offset equal to (o, 0, 0). -/
theorem mem_unit_rows_of_eq (off : Fin 3 → Nat) (o : Nat) (e : off = ![o, 0, 0])
    (inb : ∀ a, off a + S32x4x128.size a ≤ S2048x4x128.size a) (j : S2048x4x128.Idx) :
    j ∈ (Rect.unit (s := S2048x4x128) off S32x4x128.size inb).set ↔ o ≤ (j 0).val ∧ (j 0).val < o + 32 := by
  subst e
  exact mem_unit_rows o inb j

/-- The first rectangle of subcore L: rows [128 s + 64 c, +32). -/
theorem mem_rowsA (L : grid0.Coords) (j : S2048x4x128.Idx) :
    j ∈ rowsA L ↔ 128 * (L 1).val + 64 * (L 0).val ≤ (j 0).val ∧ (j 0).val < 128 * (L 1).val + 64 * (L 0).val + 32 := by
  have e : rowsA L = (Rect.unit (s := S2048x4x128) (k0_off3 L) S32x4x128.size (Facts₀.k0_off3_inb L)).set :=
    View.set_slice_whole main_v3_scv _
  rw [e]
  exact mem_unit_rows_of_eq _ _ (Gen.k0_off3_eq L) _ j

/-- The second rectangle of subcore L: rows [128 s + 64 c + 32, +32). -/
theorem mem_rowsB (L : grid0.Coords) (j : S2048x4x128.Idx) :
    j ∈ rowsB L ↔ 128 * (L 1).val + 64 * (L 0).val + 32 ≤ (j 0).val ∧ (j 0).val < 128 * (L 1).val + 64 * (L 0).val + 64 := by
  have e : rowsB L = (Rect.unit (s := S2048x4x128) (k0_off4 L) S32x4x128.size (Facts₀.k0_off4_inb L)).set :=
    View.set_slice_whole main_v3_scv _
  rw [e]
  exact (mem_unit_rows_of_eq _ _ (Gen.k0_off4_eq L) _ j).trans (by omega)

/-- What one subcore writes: rows [128 s + 64 c, +64). -/
theorem mem_rowsT (x : Fin (grid0.bound 0) × Fin (grid0.bound 1)) (j : S2048x4x128.Idx) :
    j ∈ rowsT x ↔ 128 * x.2.val + 64 * x.1.val ≤ (j 0).val ∧ (j 0).val < 128 * x.2.val + 64 * x.1.val + 64 := by
  rw [Finset.mem_union, mem_rowsA, mem_rowsB]
  show (128 * x.2.val + 64 * x.1.val ≤ (j 0).val ∧ (j 0).val < 128 * x.2.val + 64 * x.1.val + 32) ∨
      (128 * x.2.val + 64 * x.1.val + 32 ≤ (j 0).val ∧ (j 0).val < 128 * x.2.val + 64 * x.1.val + 64) ↔ _
  omega

/-- The two rectangles of one subcore do not meet. -/
theorem rowsAB_disjoint (L : grid0.Coords) : Disjoint (rowsA L) (rowsB L) := by
  refine Finset.disjoint_left.2 fun j hA hB => ?_
  rw [mem_rowsA] at hA
  rw [mem_rowsB] at hB
  omega

/-- Different subcores write different rows. -/
theorem rowsT_disjoint : ∀ x ∈ (Finset.univ : Finset (Fin (grid0.bound 0) × Fin (grid0.bound 1))),
    ∀ y ∈ (Finset.univ : Finset (Fin (grid0.bound 0) × Fin (grid0.bound 1))), x ≠ y → Disjoint (rowsT x) (rowsT y) := by
  intro x _ y _ hne
  refine Finset.disjoint_left.2 fun j hx hy => hne ?_
  rw [mem_rowsT] at hx hy
  have hx1 : x.1.val < 2 := x.1.isLt
  have hy1 : y.1.val < 2 := y.1.isLt
  refine Prod.ext (Fin.ext ?_) (Fin.ext ?_) <;> omega

/-- Together the subcores write every row. -/
theorem rowsT_cover : (Finset.univ : Finset (Fin (grid0.bound 0) × Fin (grid0.bound 1))).biUnion rowsT = Finset.univ := by
  refine Finset.eq_univ_iff_forall.2 fun j => ?_
  have hr : (j 0).val < 2048 := (j 0).isLt
  refine Finset.mem_biUnion.2 ⟨(⟨((j 0).val / 64) % 2, Nat.mod_lt _ (by decide)⟩, ⟨(j 0).val / 128, by show _ < 16; omega⟩),
    Finset.mem_univ _, (mem_rowsT _ j).2 ?_⟩
  show 128 * ((j 0).val / 128) + 64 * (((j 0).val / 64) % 2) ≤ (j 0).val ∧
      (j 0).val < 128 * ((j 0).val / 128) + 64 * (((j 0).val / 64) % 2) + 64
  omega

end Cert.Kernel.Rows

end
-- ==== Proof.WordBits.lean ====
/-
  The pointer word a subcore reads. The one-word pointer array (holding 7) is copied into lane 0 of the 16-lane
  scratch; the scratch is loaded whole; lane 0 of the loaded vector is taken (a shape cast of 16 lanes to 16 lanes,
  a slice of one lane at offset 0, the entry at 0). Lane 0 lies under the copy, the last write to the scratch, so it
  reads the copied word, whatever the scratch held before: the word is 7.
-/
import proofs.«203186_g146028888480_cont_week2b_1412_22_alg».proof.Proof.Gen.Kernel.Skeleton
import Idealize.ShloMosaic.Lib.Pipeline.Value
import Idealize.ShloMosaic.Lib.ValueIdx
import Idealize.ShloMosaic.Lib.Writes

noncomputable section

open Cert.Kernel Idealize.ShloMosaic

namespace Cert.Kernel.Word

variable {F : FTy → Type} [FloatOps F]

/-- Lane 0 of the 16-lane scratch. -/
abbrev lane0 : S16.Idx := ValueIdx.ix1 (n := 16) 0
/-- The one index of a one-lane vector. -/
abbrev one0 : S1.Idx := ValueIdx.ix1 (n := 1) 0

/-- Loading the scratch whole reads lane 0 at lane 0 … -/
theorem whole_idx_lane0 :
    (Rect.unit (s := S16) ![0] S16.size Facts₀.inb_S16_S16_0).toLoadRect.idx lane0 = lane0 := by
  funext a; apply Fin.ext
  rw [LoadRect.idx_apply, Subsingleton.elim a 0]
  rfl

/-- … and lane 0 is the one element under the one-lane copy at offset 0. -/
theorem copy_emb_lane0 :
    (Rect.unit (s := S16) ![0] S1.size Facts₀.inb_S16_S1_0).emb one0 = lane0 := by
  funext a; apply Fin.ext
  rw [Rect.emb_apply, Subsingleton.elim a 0]
  rfl

/-- The word the subcore takes from its scratch after the copy of the pointer array is 7. -/
theorem word_eq (f0 : (Memref.whole (cc0_scratch0 : Ref sig .scVector) : Memref sig .scVector .vmem S16 .i32).view.ty.Contents (Elt F)) :
    extractAt ![0]
      (Gen.k0_pay1 (F := F)
        (View.readAt (Elt F) (Memref.whole cc0_scratch0 : Memref sig .scVector .vmem S16 .i32).view
          (Rect.unit (s := S16) ![0] S16.size Facts₀.inb_S16_S16_0).toLoadRect
          ((Memref.whole cc0_scratch0 : Memref sig .scVector .vmem S16 .i32).view.writes (Elt F) f0
            [⟨Rect.unit (s := S16) ![0] S1.size Facts₀.inb_S16_S1_0,
                ReadAs.same.apply (View.read (Elt F) (Memref.whole main_v0_scv : Memref sig .scVector .hbm S1 .i32).view fun _ => 7#32)⟩])))
      Facts₀.inpos_S1_p0 =
    7#32 := by
  -- the entry at 0 of the one-lane slice is lane 0 of the shape cast, which is the loaded vector
  unfold extractAt Gen.k0_pay1
  refine (extractStridedSlice_apply ![0] _ Facts₀.slices_S16_o0_S1 _ lane0 ?_).trans ?_
  · intro a
    rw [Subsingleton.elim a 0]
    rfl
  -- lane 0 of the whole load is the element under the copy: it reads the copied word
  rw [shapeCast_self, View.readAt_apply, whole_idx_lane0, ← copy_emb_lane0, View.read_writes_cons_emb]
  rfl

end Cert.Kernel.Word

end
-- ==== Proof.HalvesBits.lean ====
/-
  The values a subcore leaves in its two halves of the output. The subcore at L copies the 32 row blocks
  [base, base + 32) of plane (w + 2) mod 33 of the tiled ring (33 × 2048 × 4 × 128) into a scratch (32 × 4 × 128) and
  then copies the scratch onto rows [base, base + 32) of the output (2048 × 4 × 128); base = 128 s + 64 c for the first
  half and 32 more for the second. At w = 7 the plane is 9, so output entry (base + y0, y1, y2) ends as ring entry
  (9, base + y0, y1, y2): the plane read of the specification. The proof reads the last write to the output at an
  element under it, reads the scratch after it was written whole, and matches the two index maps: the source slice
  with its leading unit axis dropped sends (y0, y1, y2) to (9, base + y0, y1, y2), the output slice to (base + y0, y1, y2).
-/
import proofs.«203186_g146028888480_cont_week2b_1412_22_alg».proof.Proof.OutRowsBits
import proofs.«203186_g146028888480_cont_week2b_1412_22_alg».proof.Proof.Spec
import Idealize.ShloMosaic.Lib.Writes
import Idealize.ShloMosaic.Lib.Pipeline.Value
import Idealize.ShloMosaic.Lib.ValueIdx

noncomputable section

open Cert.Kernel Idealize.ShloMosaic

namespace Cert.Kernel.Halves

open Cert.Kernel.Rows

variable {F : FTy → Type} [FloatOps F]

/-- At pointer 7 the first source slice starts at plane 9, row 128 s + 64 c. -/
theorem k0_off1_seven : ∀ L : grid0.Coords, k0_off1 L 7#32 = ![9, 128 * (L 1).val + 64 * (L 0).val, 0, 0] := by decide +kernel
/-- At pointer 7 the second source slice starts at plane 9, row 128 s + 64 c + 32. -/
theorem k0_off2_seven : ∀ L : grid0.Coords, k0_off2 L 7#32 = ![9, 128 * (L 1).val + 64 * (L 0).val + 32, 0, 0] := by decide +kernel

/-- A unit-stride rectangle sends a coordinate to the offset plus the coordinate. -/
theorem unit_emb_val {s : Shape} (off size : Fin s.rank → Nat) (inb : ∀ a, off a + size a ≤ s.size a)
    (z : (Rect.unit (s := s) off size inb).shape.Idx) (a : Fin s.rank) :
    ((Rect.unit (s := s) off size inb).emb z a).val = off a + (z a).val := by
  rw [Rect.emb_apply]
  show off a + 1 * (z a).val = off a + (z a).val
  rw [Nat.one_mul]

/-- Dropping the leading unit axis: (y0, y1, y2) of 32 × 4 × 128 is matched with (0, y0, y1, y2) of 1 × 32 × 4 × 128. -/
theorem reshape_drop_unit (h : S32x4x128.numel = (⟨4, S1x32x4x128.size⟩ : Shape).numel) (y : S32x4x128.Idx) :
    Shape.reshapeEquiv h y = ValueIdx.ix4 (n0 := 1) (n1 := 32) (n2 := 4) (n3 := 128) 0 (y 0) (y 1) (y 2) := by
  refine Shape.reshapeEquiv_eq_of_rowMajor h ?_
  rw [Shape.rowMajor_val_four, Shape.rowMajor_val_three]
  show ((0 * 32 + (y 0).val) * 4 + (y 1).val) * 128 + (y 2).val = ((y 0).val * 4 + (y 1).val) * 128 + (y 2).val
  omega

/-- The index map of a source slice (one plane, 32 row blocks from row o, unit axis dropped) against the index map of
    an output slice (32 row blocks from row o): the source element is the plane-9 element over the output element. -/
theorem emb_match (off : Fin 4 → Nat) (off' : Fin 3 → Nat) (o : Nat) (e : off = ![9, o, 0, 0]) (e' : off' = ![o, 0, 0])
    (inb : ∀ a, off a + S1x32x4x128.size a ≤ S33x2048x4x128.size a)
    (inb' : ∀ a, off' a + S32x4x128.size a ≤ S2048x4x128.size a)
    (h : S32x4x128.numel = (⟨4, S1x32x4x128.size⟩ : Shape).numel) (y : S32x4x128.Idx) :
    (Rect.unit (s := S33x2048x4x128) off S1x32x4x128.size inb).emb (Shape.reshapeEquiv h y)
      = ValueIdx.ix4 (n0 := 33) (n1 := 2048) (n2 := 4) (n3 := 128) Spec.slot
          ((Rect.unit (s := S2048x4x128) off' S32x4x128.size inb').emb y 0)
          ((Rect.unit (s := S2048x4x128) off' S32x4x128.size inb').emb y 1)
          ((Rect.unit (s := S2048x4x128) off' S32x4x128.size inb').emb y 2) := by
  subst e e'
  rw [reshape_drop_unit h y]
  funext a
  apply Fin.ext
  rw [unit_emb_val]
  match a with
  | ⟨0, _⟩ => rfl
  | ⟨1, _⟩ =>
    show _ = ((Rect.unit (s := S2048x4x128) ![o, 0, 0] S32x4x128.size inb').emb y 0).val
    rw [unit_emb_val]; rfl
  | ⟨2, _⟩ =>
    show _ = ((Rect.unit (s := S2048x4x128) ![o, 0, 0] S32x4x128.size inb').emb y 1).val
    rw [unit_emb_val]; rfl
  | ⟨3, _⟩ =>
    show _ = ((Rect.unit (s := S2048x4x128) ![o, 0, 0] S32x4x128.size inb').emb y 2).val
    rw [unit_emb_val]; rfl

/-- The first half: after the two copies, every element of the first output rectangle holds the plane-9 entry over it. -/
theorem val_A (L : grid0.Coords) (w : BitVec 32) (hw : k0_chk1 L w) (h7 : w = 7#32)
    (fr : (Memref.whole (main_v2_scv : Ref sig .scVector) : Memref sig .scVector .hbm S33x2048x4x128 .f32).view.ty.Contents (Elt F))
    (fo : (Memref.whole (main_v3_scv : Ref sig .scVector) : Memref sig .scVector .hbm S2048x4x128 .f32).view.ty.Contents (Elt F))
    (f1 : (Memref.whole (cc0_scratch1 : Ref sig .scVector) : Memref sig .scVector .vmem S32x4x128 .f32).view.ty.Contents (Elt F)) :
    ∀ j ∈ (outA L).view.set,
      (outA L).view.writes (Elt F) fo
          [⟨Rect.whole S32x4x128,
              ReadAs.same.apply
                (View.read (Elt F) (Memref.whole cc0_scratch1 : Memref sig .scVector .vmem S32x4x128 .f32).view
                  (View.write (Elt F) (Memref.whole cc0_scratch1 : Memref sig .scVector .vmem S32x4x128 .f32).view f1
                    (ReadAs.same.apply
                      (View.read (Elt F)
                        (((Memref.whole main_v2_scv : Memref sig .scVector .hbm S33x2048x4x128 .f32).slice
                                (Rect.unit (s := S33x2048x4x128) (k0_off1 L w) S1x32x4x128.size (k0_off1_inb L w hw)) (fun _ => rfl)).squeeze
                            S32x4x128 Facts₀.squeezes_S1x32x4x128_S32x4x128).view
                        fr))
                    Finset.univ))⟩]
          j =
        (Cert.Spec.planeOf fr : S2048x4x128.Idx → F .f32) j := by
  subst h7
  intro j hj
  obtain ⟨y, -, rfl⟩ := Finset.mem_map.1 hj
  -- the contents at the element under y are what the output slice reads at y
  refine ((View.read_apply _ _).trans (cast_eq _ _)).symm.trans ?_
  -- y is under the last write, which covers the whole slice: it reads the payload at y
  refine (congrArg _ (Rect.emb_whole_apply S32x4x128 y).symm).trans ((View.read_writes_cons_emb _ _ (Rect.whole S32x4x128) _ [] y).trans ?_)
  -- the payload is the scratch read after it was written whole: what was written, the source slice's reading of the ring
  simp only [Memref.view_whole, View.read_whole, View.write_whole_univ]
  refine ((View.read_apply _ _).trans (cast_eq _ _)).trans ?_
  -- the two index maps
  exact congrArg fr (emb_match _ _ _ (k0_off1_seven L) (Gen.k0_off3_eq L) _ _ _ y)

/-- The second half: the same for the second output rectangle. -/
theorem val_B (L : grid0.Coords) (w : BitVec 32) (hw : k0_chk1 L w) (h7 : w = 7#32)
    (fr : (Memref.whole (main_v2_scv : Ref sig .scVector) : Memref sig .scVector .hbm S33x2048x4x128 .f32).view.ty.Contents (Elt F))
    (fo : (Memref.whole (main_v3_scv : Ref sig .scVector) : Memref sig .scVector .hbm S2048x4x128 .f32).view.ty.Contents (Elt F))
    (f2 : (Memref.whole (cc0_scratch2 : Ref sig .scVector) : Memref sig .scVector .vmem S32x4x128 .f32).view.ty.Contents (Elt F)) :
    ∀ j ∈ (outB L).view.set,
      (outB L).view.writes (Elt F) fo
          [⟨Rect.whole S32x4x128,
              ReadAs.same.apply
                (View.read (Elt F) (Memref.whole cc0_scratch2 : Memref sig .scVector .vmem S32x4x128 .f32).view
                  (View.write (Elt F) (Memref.whole cc0_scratch2 : Memref sig .scVector .vmem S32x4x128 .f32).view f2
                    (ReadAs.same.apply
                      (View.read (Elt F)
                        (((Memref.whole main_v2_scv : Memref sig .scVector .hbm S33x2048x4x128 .f32).slice
                                (Rect.unit (s := S33x2048x4x128) (k0_off2 L w) S1x32x4x128.size (k0_off2_inb L w hw)) (fun _ => rfl)).squeeze
                            S32x4x128 Facts₀.squeezes_S1x32x4x128_S32x4x128).view
                        fr))
                    Finset.univ))⟩]
          j =
        (Cert.Spec.planeOf fr : S2048x4x128.Idx → F .f32) j := by
  subst h7
  intro j hj
  obtain ⟨y, -, rfl⟩ := Finset.mem_map.1 hj
  -- the contents at the element under y are what the output slice reads at y
  refine ((View.read_apply _ _).trans (cast_eq _ _)).symm.trans ?_
  -- y is under the last write, which covers the whole slice: it reads the payload at y
  refine (congrArg _ (Rect.emb_whole_apply S32x4x128 y).symm).trans ((View.read_writes_cons_emb _ _ (Rect.whole S32x4x128) _ [] y).trans ?_)
  -- the payload is the scratch read after it was written whole: what was written, the source slice's reading of the ring
  simp only [Memref.view_whole, View.read_whole, View.write_whole_univ]
  refine ((View.read_apply _ _).trans (cast_eq _ _)).trans ?_
  -- the two index maps
  exact congrArg fr (emb_match _ _ _ (k0_off2_seven L) (Gen.k0_off4_eq L) _ _ _ y)

end Cert.Kernel.Halves

end
-- ==== Proof.KBitsTile.lean ====
/-
  The SparseCore program's run. @main reshapes the pointer to a one-word array and re-lays the ring as
  (plane, row block, source, lane); the SparseCore call has each of the 32 vector subcores read the word, take
  plane (word + 2) mod 33, and move its own 64 row blocks of that plane to the output in two halves of 32, each
  half through a scratch buffer of its own and a semaphore of its own; @main then re-lays the output as
  (source, position). Every subcore reads the same word and the same ring, which nothing writes during the call,
  and writes row blocks no other subcore touches, so the order in which the subcores and the copy engine take
  their steps does not matter: each half ends holding the ring's plane 9 at its own row blocks.
-/
import proofs.«203186_g146028888480_cont_week2b_1412_22_alg».proof.Defs
import proofs.«203186_g146028888480_cont_week2b_1412_22_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«203186_g146028888480_cont_week2b_1412_22_alg».proof.Proof.Gen.Kernel
import proofs.«203186_g146028888480_cont_week2b_1412_22_alg».proof.Proof.Gen.Kernel.Skeleton
import proofs.«203186_g146028888480_cont_week2b_1412_22_alg».proof.Proof.OutRowsBits
import proofs.«203186_g146028888480_cont_week2b_1412_22_alg».proof.Proof.WordBits
import proofs.«203186_g146028888480_cont_week2b_1412_22_alg».proof.Proof.HalvesBits

noncomputable section

namespace Cert.Kernel.Run

open Cert.Kernel Cert.Kernel.Gen Cert.Kernel.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "pW" => (Memref.whole Cert.Kernel.main_v0_scv : Memref Cert.Kernel.sig Kind.scVector Space.hbm Cert.Kernel.S1 EltTy.i32)
local notation "rW" => (Memref.whole Cert.Kernel.main_v2_scv : Memref Cert.Kernel.sig Kind.scVector Space.hbm Cert.Kernel.S33x2048x4x128 EltTy.f32)
local notation "sP" => (Memref.whole Cert.Kernel.cc0_scratch0 : Memref Cert.Kernel.sig Kind.scVector Space.vmem Cert.Kernel.S16 EltTy.i32)
local notation "sA" => (Memref.whole Cert.Kernel.cc0_scratch1 : Memref Cert.Kernel.sig Kind.scVector Space.vmem Cert.Kernel.S32x4x128 EltTy.f32)
local notation "sB" => (Memref.whole Cert.Kernel.cc0_scratch2 : Memref Cert.Kernel.sig Kind.scVector Space.vmem Cert.Kernel.S32x4x128 EltTy.f32)

abbrev pLoc (d : Dev nD) : Loc nD τ sig := (SparseCore.T d).loc main_v0
abbrev rLoc (d : Dev nD) : Loc nD τ sig := (SparseCore.T d).loc main_v2
abbrev oLoc (d : Dev nD) : Loc nD τ sig := (SparseCore.T d).loc main_v3

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev semA (c : Fin τ.nSC) (i : Fin τ.nSub) : GSem nD τ sig := (V d c i, .dma cc0_scratch3.sem)
abbrev semB (c : Fin τ.nSC) (i : Fin τ.nSub) : GSem nD τ sig := (V d c i, .dma cc0_scratch4.sem)
abbrev semP (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (semA d (cV L) (jV L)) 0 ∗ semVal (semB d (cV L) (jV L)) 0 ∗ semVal (semP d (cV L) (jV L)) 0
          ∗ bigSep ((((ownCells (V d (cV L) (jV L))).erase (semA d (cV L) (jV L))).erase (semB d (cV L) (jV L))).erase (semP d (cV L) (jV L)))
              fun g => semVal g 0) := by
  unfold SparseCore.Cfg.ownSems0
  rw [SparseCore.bigSep_erase' ((mem_ownCells (g := semA d (cV L) (jV L))).mpr ⟨rfl, by
      show (SemLoc.dma cc0_scratch3.sem : SemLoc sig).isScoped .scVector = true; decide⟩),
    SparseCore.bigSep_erase' (Finset.mem_erase.mpr ⟨by simp [semA, semB]; decide, (mem_ownCells (g := semB d (cV L) (jV L))).mpr ⟨rfl, by
      show (SemLoc.dma cc0_scratch4.sem : SemLoc sig).isScoped .scVector = true; decide⟩⟩),
    SparseCore.bigSep_erase' (Finset.mem_erase.mpr ⟨by simp [semB, semP]; decide, Finset.mem_erase.mpr ⟨by simp [semA, semP]; decide,
      (mem_ownCells (g := semP d (cV L) (jV L))).mpr ⟨rfl, by show (SemLoc.dma cc0_scoped0.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The side condition on the word read holds at 7, at every subcore. -/
theorem chk7 : ∀ L : grid0.Coords, k0_chk1 L 7#32 := by decide +kernel

/-- What a subcore is handed: a read share of the pointer word (at 7) and of the ring, and its two output halves. -/
def goRes (q : PosShare TreeShare) (fr : Buf (Elt F) (rLoc d)) (fo : Buf (Elt F) (oLoc d)) : sProp 𝕄 :=
  iprop(((pW).view.loc (V d (cV L) (jV L)) ↦{q} ((fun _ => (7#32 : BitVec 32)) : Buf (Elt F) (pLoc d)))
    ∗ ((rW).view.loc (V d (cV L) (jV L)) ↦{q} fr)
    ∗ ((outA L).view.loc (V d (cV L) (jV L)) ↦[(outA L).view.set]{fullShare} fo)
    ∗ ((outB L).view.loc (V d (cV L) (jV L)) ↦[(outB L).view.set]{fullShare} fo))

omit [FloatOps F] in
theorem pts_sP (f : Buf (Elt F) ((V d (cV L) (jV L)).loc cc0_scratch0)) :
    ((sP).view.loc (V d (cV L) (jV L)) ↦{fullShare} f : sProp 𝕄) = (V d (cV L) (jV L)).loc cc0_scratch0 ↦{fullShare} f := rfl
omit [FloatOps F] in
theorem pts_sA (f : Buf (Elt F) ((V d (cV L) (jV L)).loc cc0_scratch1)) :
    ((sA).view.loc (V d (cV L) (jV L)) ↦{fullShare} f : sProp 𝕄) = (V d (cV L) (jV L)).loc cc0_scratch1 ↦{fullShare} f := rfl
omit [FloatOps F] in
theorem pts_sB (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl

/-- What a subcore hands back: its two output halves holding the ring's plane 9 at their own row blocks. -/
def tdRes (fr : Buf (Elt F) (rLoc d)) : sProp 𝕄 :=
  iprop((oLoc d ↦[rowsA L]{fullShare} (Cert.Spec.planeOf fr : Buf (Elt F) (oLoc d)))
    ∗ (oLoc d ↦[rowsB L]{fullShare} (Cert.Spec.planeOf fr : Buf (Elt F) (oLoc d))))

omit [FloatOps F] in
theorem pts_outA (f : Buf (Elt F) (oLoc d)) :
    ((outA L).view.loc (V d (cV L) (jV L)) ↦[(outA L).view.set]{fullShare} f : sProp 𝕄) = oLoc d ↦[rowsA L]{fullShare} f := rfl
omit [FloatOps F] in
theorem pts_outB (f : Buf (Elt F) (oLoc d)) :
    ((outB L).view.loc (V d (cV L) (jV L)) ↦[(outB L).view.set]{fullShare} f : sProp 𝕄) = oLoc d ↦[rowsB L]{fullShare} f := rfl

omit [FloatOps F] in
/-- Two read tokens of one array, side by side. -/
theorem toks_two (ℓ : Loc nD τ sig) (q : PosShare TreeShare) (f : Buf (Elt F) ℓ) :
    (bigSep Finset.univ (fun i : Fin 2 => (ℓ ↦{Transfers.shareTok q 2 i} f : sProp 𝕄)))
      = iprop((ℓ ↦{Transfers.shareTok q 2 0} f) ∗ ℓ ↦{Transfers.shareTok q 2 1} f) := by
  rw [show (Finset.univ : Finset (Fin 2)) = {0, 1} by decide, SparseCore.bigSep_insert' (by decide), bigSep_singleton]

/-- One subcore's task, from read shares of the pointer word and the ring and its two output halves. -/
theorem tile_body (hF : (K (F := F)).Facts) (q : PosShare TreeShare) (fr : Buf (Elt F) (rLoc d)) (fo : Buf (Elt F) (oLoc d))
    (O : CellTallies nD τ sig (HIx 1)) (W : Waits sig (HIx 1)) (hO : ∀ g, O g none = 0) :
    (iprop(levAts (K (F := F)).L (K (F := F)).lev ∗ emp
        ∗ goRes d L q fr fo
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_body L pW (Memref.isWhole_whole _) rW (Memref.isWhole_whole _) oW (Memref.isWhole_whole _)
            sP (Memref.isWhole_whole _) sA (Memref.isWhole_whole _) sB (Memref.isWhole_whole _) cc0_scratch3 cc0_scratch4 cc0_scoped0)
          fun _ => (iprop(tdRes d L fr ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__sc_body_eq_skeleton]; unfold cc0__sc_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold goRes
  iintro ⟨#Hlv, -, ⟨Hp, Hr, HoA, HoB⟩, ⟨⟨%f0, Hs0⟩, ⟨%f1, Hs1⟩, ⟨%f2, Hs2⟩, Hbufs⟩, ⟨HsemA, HsemB, HsemP, Hsems⟩, HO⟩
  ihave Hmw := ((K (F := F)).mayWaits_none (thr := V d (cV L) (jV L)) hO) $$ Hlv
  ihave Hs0' := (Entails.of_eq (pts_sP (F := F) d L _).symm) $$ Hs0
  ihave Hs1' := (Entails.of_eq (pts_sA (F := F) d L _).symm) $$ Hs1
  ihave Hs2' := (Entails.of_eq (pts_sB (F := F) d L _).symm) $$ Hs2
  -- the ring is read by two copies at once, one per semaphore: a read token for each
  ihave Hr' := (Transfers.pointsTo_toks_split q 2) $$ Hr
  icases Hr' with ⟨-, Htoks⟩
  ihave Htoks' := (Entails.of_eq (toks_two (F := F) ((rW).view.loc (V d (cV L) (jV L))) q fr)) $$ Htoks
  icases Htoks' with ⟨Hr0, Hr1⟩
  sl_exec
  have h6 : tile_body.sl.v6 d L f0 = 7#32 := by
    unfold tile_body.sl.v6 tile_body.sl.v3 tile_body.sl.dma0
    exact Cert.Kernel.Word.word_eq f0
  have hchk : k0_chk1 L (tile_body.sl.v6 d L f0) := h6 ▸ chk7 L
  sl_exec
  have hvalA : ∀ j ∈ (outA L).view.set,
      ((outA L).view.writes (Elt F) fo [⟨Rect.whole S32x4x128, tile_body.sl.dma0_3 d L fr f0 f1 hchk⟩]) j
        = (Cert.Spec.planeOf fr : Buf (Elt F) (oLoc d)) j := by
    unfold tile_body.sl.dma0_3 tile_body.sl.dma0_1
    exact Cert.Kernel.Halves.val_A L _ hchk h6 fr fo f1
  have hvalB : ∀ j ∈ (outB L).view.set,
      ((outB L).view.writes (Elt F) fo [⟨Rect.whole S32x4x128, tile_body.sl.dma0_4 d L fr f0 f2 hchk⟩]) j
        = (Cert.Spec.planeOf fr : Buf (Elt F) (oLoc d)) j := by
    unfold tile_body.sl.dma0_4 tile_body.sl.dma0_2
    exact Cert.Kernel.Halves.val_B L _ hchk h6 fr fo f2
  sl_step
  unfold tdRes
  isplitl [HoA HoB]
  · isplitl [HoA]
    · ihave HA := (Entails.of_eq (pointsTo_congr (q := fullShare) hvalA)) $$ HoA
      iapply (Entails.of_eq (pts_outA (F := F) d L _)); iexact HA
    · ihave HB := (Entails.of_eq (pointsTo_congr (q := fullShare) hvalB)) $$ HoB
      iapply (Entails.of_eq (pts_outB (F := F) d L _)); iexact HB
  isplitl [Hs0' Hs1' Hs2' Hbufs]
  · isplitl [Hs0']; · iexists _; iexact Hs0'
    isplitl [Hs1']; · iexists _; iexact Hs1'
    isplitl [Hs2']; · iexists _; iexact Hs2'
    iexact Hbufs
  isplitl [HsemA HsemB HsemP Hsems]
  · isplitl [HsemA]; · iexact HsemA
    isplitl [HsemB]; · iexact HsemB
    isplitl [HsemP]; · iexact HsemP
    iexact Hsems
  iexists _; isplitr
  rotate_left
  · iexact HO
  · ipureintro; intro p hp
    rcases Finset.mem_insert.mp hp with hp | hp
    · exact Or.inr (by rw [hp]; rfl)
    rcases Finset.mem_insert.mp hp with hp | hp
    · exact Or.inr (by rw [hp]; rfl)
    rcases Finset.mem_insert.mp hp with hp | hp
    · exact Or.inr (by rw [hp]; rfl)
    rcases Finset.mem_insert.mp hp with hp | hp
    · exact Or.inr (by rw [hp]; rfl)
    rcases Finset.mem_insert.mp hp with hp | hp
    · exact Or.inr (by rw [hp]; rfl)
    exact .inl hp

end Tile

end Cert.Kernel.Run

end
-- ==== Proof.HostBridge.lean ====
/-
  The host operations around the plane read compose to the delayed plane.
  The ring buffer (a, p, k), k = 128·b + l, is reshaped to (a, p, b, l) and transposed to (p, b, a, l); reading plane 9
  gives (b, a, l) ↦ ring(9, b, a, l); transposing back to (a, b, l) and reshaping to (a, 128·b + l) gives
  (a, k) ↦ buffer(a, 9, k). Each step is read at one index, outermost first: a reshape keeps the row-major position,
  a transpose permutes the coordinates. Nothing depends on the element type.
-/
import proofs.«203186_g146028888480_cont_week2b_1412_22_alg».proof.Proof.Spec
import Idealize.ShloMosaic.Lib.Pipeline.Value
import Idealize.ShloMosaic.Lib.ValueIdx

namespace Cert.Spec

open Idealize.ShloMosaic

/-- A position below 262144 is 128·b + l with b below 2048 and l below 128. -/
theorem split_position (k : Fin 262144) : ∃ (b : Fin 2048) (l : Fin 128), k.val = 128 * b.val + l.val :=
  ⟨⟨k.val / 128, by have := k.isLt; omega⟩, ⟨k.val % 128, Nat.mod_lt _ (by decide)⟩, by
    show k.val = 128 * (k.val / 128) + k.val % 128
    omega⟩

/-- Reshape, transpose, read plane 9, transpose back, reshape: the result is the delayed plane of the ring. -/
theorem host_bridge {α : Type} (buffer : Cert.Spec.Ring.Idx → α)
    (h1 : Cert.Spec.Ring.ShapeCasts (⟨4, ![4, 33, 2048, 128]⟩ : Shape))
    (h2 : (⟨4, ![4, 33, 2048, 128]⟩ : Shape).Transposes [1, 2, 0, 3] Cert.Spec.RingTiled)
    (h3 : Cert.Spec.PlaneTiled.Transposes [1, 0, 2] (⟨3, ![4, 2048, 128]⟩ : Shape))
    (h4 : (⟨3, ![4, 2048, 128]⟩ : Shape).ShapeCasts Cert.Spec.Plane) :
    shapeCast Cert.Spec.Plane
        (transpose (⟨3, ![4, 2048, 128]⟩ : Shape) [1, 0, 2]
          (Cert.Spec.planeOf (transpose Cert.Spec.RingTiled [1, 2, 0, 3] (shapeCast (⟨4, ![4, 33, 2048, 128]⟩ : Shape) buffer h1) h2)) h3) h4
      = Cert.Spec.delayed buffer := by
  funext i
  obtain ⟨a, k, rfl⟩ : ∃ (a : Fin 4) (k : Fin 262144), i = ValueIdx.ix2 a k := ⟨i 0, i 1, ValueIdx.eq_ix2 i⟩
  obtain ⟨b, l, hk⟩ := split_position k
  have ha := a.isLt
  have hb := b.isLt
  have hl := l.isLt
  -- the last reshape: (a, k) has the row-major position of (a, b, l)
  refine (shapeCast_apply _ h4 (ValueIdx.ix2 a k) (ValueIdx.ix3 a b l) ?_).trans ?_
  · rw [Shape.rowMajor_val_three, Shape.rowMajor_val_two]
    show (a.val * 2048 + b.val) * 128 + l.val = a.val * 262144 + k.val
    omega
  -- the transpose back: (a, b, l) reads (b, a, l)
  refine (transpose_apply _ _ h3 (ValueIdx.ix3 a b l) (ValueIdx.ix3 b a l) ?_).trans ?_
  · intro c
    match c with
    | ⟨0, _⟩ => rfl
    | ⟨1, _⟩ => rfl
    | ⟨2, _⟩ => rfl
  -- plane 9 of the tiled ring
  refine (planeOf_apply _ b a l).trans ?_
  -- the first transpose: (9, b, a, l) reads (a, 9, b, l)
  refine (transpose_apply _ _ h2 (ValueIdx.ix4 slot b a l) (ValueIdx.ix4 a slot b l) ?_).trans ?_
  · intro c
    match c with
    | ⟨0, _⟩ => rfl
    | ⟨1, _⟩ => rfl
    | ⟨2, _⟩ => rfl
    | ⟨3, _⟩ => rfl
  -- the first reshape: (a, 9, b, l) has the row-major position of (a, 9, k)
  refine (shapeCast_apply _ h1 (ValueIdx.ix4 a slot b l) (ValueIdx.ix3 a slot k) ?_).trans ?_
  · rw [Shape.rowMajor_val_three, Shape.rowMajor_val_four]
    show (a.val * 33 + 9) * 262144 + k.val = ((a.val * 33 + 9) * 2048 + b.val) * 128 + l.val
    omega
  exact (delayed_apply buffer a k).symm

end Cert.Spec
-- ==== Proof.KBitsLaunch.lean ====
/-
  The SparseCore program's run, from the subcores' tasks. Before the call @main holds the pointer word (7), the ring
  re-laid as (plane, row block, source, lane) and the output array; the call deals every subcore a read share of the
  first two and its own two halves of the output, and gets the halves back holding plane 9 of the ring at their own
  row blocks; the halves are pairwise disjoint and cover the output, so the output array is plane 9 in the call's
  layout, and the two re-layings after the call turn it into the ring's plane 9 as (source, position).
-/
import proofs.«203186_g146028888480_cont_week2b_1412_22_alg».proof.Proof.KBitsTile
import proofs.«203186_g146028888480_cont_week2b_1412_22_alg».proof.Proof.HostBridge

noncomputable section

namespace Cert.Kernel.Run

open Cert.Kernel Cert.Kernel.Gen Cert.Kernel.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main's arrays on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev p' : DevRef τ sig := Proc.devRef .tc (main_v0 : Ref sig .tc)
abbrev t' : DevRef τ sig := Proc.devRef .tc (main_v1 : Ref sig .tc)
abbrev r' : DevRef τ sig := Proc.devRef .tc (main_v2 : Ref sig .tc)
abbrev o' : DevRef τ sig := Proc.devRef .tc (main_v3 : Ref sig .tc)
abbrev u' : DevRef τ sig := Proc.devRef .tc (main_v4 : Ref sig .tc)
abbrev z' : DevRef τ sig := Proc.devRef .tc (main_v5 : Ref sig .tc)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev tLoc (d : Dev nD) : Loc nD τ sig := (SparseCore.T d).loc main_v1
abbrev uLoc (d : Dev nD) : Loc nD τ sig := (SparseCore.T d).loc main_v4
abbrev zLoc (d : Dev nD) : Loc nD τ sig := (SparseCore.T d).loc main_v5

variable [FloatOps F]

abbrev op0 : HloOp τ sig (Elt F) := StableHlo.reshape main_arg2 main_v0 rfl shapeCasts_S_S1
abbrev op1 : HloOp τ sig (Elt F) := StableHlo.reshape main_arg1 main_v1 rfl shapeCasts_S4x33x262144_S4x33x2048x128
abbrev op2 : HloOp τ sig (Elt F) := StableHlo.unary main_v1 main_v2 ((transpose S33x2048x4x128 [1, 2, 0, 3] · transposes_S4x33x2048x128_S33x2048x4x128_1_2_0_3) : (⟨S4x33x2048x128, .f32⟩ : BufTy).Contents (Elt F) → (⟨S33x2048x4x128, .f32⟩ : BufTy).Contents (Elt F))
abbrev op4 : HloOp τ sig (Elt F) := StableHlo.unary main_v3 main_v4 ((transpose S4x2048x128 [1, 0, 2] · transposes_S2048x4x128_S4x2048x128_1_0_2) : (⟨S2048x4x128, .f32⟩ : BufTy).Contents (Elt F) → (⟨S4x2048x128, .f32⟩ : BufTy).Contents (Elt F))
abbrev op5 : HloOp τ sig (Elt F) := StableHlo.reshape main_v4 main_v5 rfl shapeCasts_S4x2048x128_S4x262144

/-- All nine arrays. -/
abbrev S9 : Finset (DevRef τ sig) := {a0', a1', a2', p', t', r', o', u', z'}
/-- The six that matter after the call. -/
abbrev S6 : Finset (DevRef τ sig) := {a0', a1', a2', o', u', z'}

omit [FloatOps F] in
theorem held_S9 (d : Dev nD) (W : Valuation τ sig (Elt F)) :
    (held (T d) S9 W : sProp 𝕄) = iprop((a0Loc d ↦{fullShare} W a0') ∗ (a1Loc d ↦{fullShare} W a1') ∗ (a2Loc d ↦{fullShare} W a2')
      ∗ (pLoc d ↦{fullShare} W p') ∗ (tLoc d ↦{fullShare} W t') ∗ (rLoc d ↦{fullShare} W r') ∗ (oLoc d ↦{fullShare} W o')
      ∗ (uLoc d ↦{fullShare} W u') ∗ zLoc d ↦{fullShare} W z') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S6 (d : Dev nD) (W : Valuation τ sig (Elt F)) :
    (held (T d) S6 W : sProp 𝕄) = iprop((a0Loc d ↦{fullShare} W a0') ∗ (a1Loc d ↦{fullShare} W a1') ∗ (a2Loc d ↦{fullShare} W a2')
      ∗ (oLoc d ↦{fullShare} W o') ∗ (uLoc d ↦{fullShare} W u') ∗ zLoc d ↦{fullShare} W z') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (pLoc d ↦{fullShare} W main_v0) ∗ (tLoc d ↦{fullShare} W main_v1) ∗ (rLoc d ↦{fullShare} W main_v2) ∗ (oLoc d ↦{fullShare} W main_v3)
      ∗ (uLoc d ↦{fullShare} W main_v4) ∗ zLoc d ↦{fullShare} W main_v5) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch contents; the contents when the call is made; after the call; at the end. -/
def V0 (d : Dev nD) : Valuation τ sig (Elt F) := fun b => m (d, b)
abbrev VA (d : Dev nD) : Valuation τ sig (Elt F) := (op2 (F := F)).result ((op1 (F := F)).result ((op0 (F := F)).result (V0 m d)))
/-- The ring as the call finds it. -/
abbrev ringOf (d : Dev nD) : Buf (Elt F) (rLoc d) := VA m d r'
abbrev VB (d : Dev nD) : Valuation τ sig (Elt F) := Function.update (VA m d) o' (Cert.Spec.planeOf (ringOf m d) : Buf (Elt F) (oLoc d))
abbrev VC (d : Dev nD) : Valuation τ sig (Elt F) := (op5 (F := F)).result ((op4 (F := F)).result (VB m d))

theorem unscoped_held (d : Dev nD) : (unscopedBufs d (fun b => m ((SparseCore.T d).loc b)) : sProp 𝕄) = held (T d) S9 (V0 m d) := by
  rw [unscopedBufs_eq, held_S9]; rfl

theorem VA_eq (d : Dev nD) : VA m d = after [op0 (F := F), op1, op2] (V0 m d) := rfl
theorem VC_eq (d : Dev nD) : VC m d = after [op4 (F := F), op5] (VB m d) := rfl

theorem VA_a0 (d : Dev nD) : VA m d a0' = m (a0Loc d) := by
  rw [VA_eq]; show after _ _ (Proc.devRef .tc main_arg0) = _; after_results; rfl
theorem VA_a1 (d : Dev nD) : VA m d a1' = m (a1Loc d) := by
  rw [VA_eq]; show after _ _ (Proc.devRef .tc main_arg1) = _; after_results; rfl
theorem VA_a2 (d : Dev nD) : VA m d a2' = m (a2Loc d) := by
  rw [VA_eq]; show after _ _ (Proc.devRef .tc main_arg2) = _; after_results; rfl
theorem VA_o (d : Dev nD) : VA m d o' = m (oLoc d) := by
  rw [VA_eq]; show after _ _ (Proc.devRef .tc main_v3) = _; after_results; rfl
theorem VA_p (d : Dev nD) (hp : m (a2Loc d) = fun _ => (7#32 : BitVec 32)) : VA m d p' = (fun _ => (7#32 : BitVec 32) : Buf (Elt F) (pLoc d)) := by
  rw [VA_eq]; show after _ _ (Proc.devRef .tc main_v0) = _; after_results
  show (fun i => shapeCast S1 (m (a2Loc d)) shapeCasts_S_S1 i) = _
  rw [hp]; rfl
theorem ringOf_eq (d : Dev nD) :
    ringOf m d = transpose S33x2048x4x128 [1, 2, 0, 3] (shapeCast S4x33x2048x128 (m (a1Loc d)) shapeCasts_S4x33x262144_S4x33x2048x128) transposes_S4x33x2048x128_S33x2048x4x128_1_2_0_3 := by
  show VA m d r' = _; rw [VA_eq]; show after _ _ (Proc.devRef .tc main_v2) = _; after_results; rfl

theorem VB_a0 (d : Dev nD) : VB m d a0' = m (a0Loc d) := (Function.update_of_ne (show a0' ≠ o' by decide) _ _).trans (VA_a0 m d)
theorem VB_a1 (d : Dev nD) : VB m d a1' = m (a1Loc d) := (Function.update_of_ne (show a1' ≠ o' by decide) _ _).trans (VA_a1 m d)
theorem VB_a2 (d : Dev nD) : VB m d a2' = m (a2Loc d) := (Function.update_of_ne (show a2' ≠ o' by decide) _ _).trans (VA_a2 m d)
theorem VB_o (d : Dev nD) : VB m d o' = (Cert.Spec.planeOf (ringOf m d) : Buf (Elt F) (oLoc d)) := Function.update_self _ _ _
theorem VB_u (d : Dev nD) : VB m d u' = VA m d u' := Function.update_of_ne (show u' ≠ o' by decide) _ _
theorem VB_z (d : Dev nD) : VB m d z' = VA m d z' := Function.update_of_ne (show z' ≠ o' by decide) _ _

theorem VC_a0 (d : Dev nD) : VC m d a0' = m (a0Loc d) := by
  rw [VC_eq]; show after _ _ (Proc.devRef .tc main_arg0) = _; after_results; exact VB_a0 m d
theorem VC_a1 (d : Dev nD) : VC m d a1' = m (a1Loc d) := by
  rw [VC_eq]; show after _ _ (Proc.devRef .tc main_arg1) = _; after_results; exact VB_a1 m d
theorem VC_a2 (d : Dev nD) : VC m d a2' = m (a2Loc d) := by
  rw [VC_eq]; show after _ _ (Proc.devRef .tc main_arg2) = _; after_results; exact VB_a2 m d
/-- The result: the ring's plane 9. -/
theorem VC_z (d : Dev nD) : VC m d z' = (Cert.Spec.delayed (m (a1Loc d)) : Buf (Elt F) (zLoc d)) := by
  rw [VC_eq]; show after _ _ (Proc.devRef .tc main_v5) = _; after_results
  show (fun i => shapeCast S4x262144 (transpose S4x2048x128 [1, 0, 2] (VB m d o') transposes_S2048x4x128_S4x2048x128_1_0_2) shapeCasts_S4x2048x128_S4x262144 i) = _
  rw [VB_o, ringOf_eq]
  exact Cert.Spec.host_bridge (m (a1Loc d)) _ _ _ _

/-! ## What the handshakes carry -/

theorem bound0 : grid0.bound 0 = 2 := rfl
theorem bound1 : grid0.bound 1 = 16 := rfl
theorem hC : (K (F := F)).nCore 0 = grid0.bound 0 := rfl
theorem hS : (K (F := F)).nSub 0 = grid0.bound 1 := rfl

abbrev tokC (c : Fin (grid0.bound 0)) : PosShare TreeShare := Transfers.shareTok fullShare (grid0.bound 0) c
abbrev tokT (c : Fin (grid0.bound 0)) (i : Fin (grid0.bound 1)) : PosShare TreeShare := Transfers.shareTok (tokC c) (grid0.bound 1) i

/-- One subcore's operands: a read share of the pointer word and of the ring, its two output halves. -/
def goT (d : Dev nD) (c : Fin (grid0.bound 0)) (i : Fin (grid0.bound 1)) : sProp 𝕄 :=
  iprop((pLoc d ↦{tokT c i} ((fun _ => (7#32 : BitVec 32)) : Buf (Elt F) (pLoc d)))
    ∗ (rLoc d ↦{tokT c i} ringOf m d)
    ∗ (oLoc d ↦[rowsA (coordsV c i)]{fullShare} m (oLoc d))
    ∗ (oLoc d ↦[rowsB (coordsV c i)]{fullShare} m (oLoc d)))
/-- and its results. -/
def tdT (d : Dev nD) (c : Fin (grid0.bound 0)) (i : Fin (grid0.bound 1)) : sProp 𝕄 := tdRes d (coordsV c i) (ringOf m d)

def P : (K (F := F)).Pay (nD := nD) (Val := Elt F) (Name := ℕ) (U := UU) where
  st := fun q d c => match q with | 0 => bigSep Finset.univ fun i : Fin (grid0.bound 1) => goT m d (Fin.cast hC c) i
  dn := fun q d c => match q with | 0 => bigSep Finset.univ fun i : Fin (grid0.bound 1) => tdT m d (Fin.cast hC c) i
  go := fun q d c i => match q with | 0 => goT m d (Fin.cast hC c) (Fin.cast hS i)
  td := fun q d c i => match q with | 0 => tdT m d (Fin.cast hC c) (Fin.cast hS i)
  x := fun _ _ => iprop(emp)

instance goT_storable (d : Dev nD) (c : Fin (grid0.bound 0)) (i : Fin (grid0.bound 1)) : BI.Storable (upEmb : UEmb _ 𝕄) (goT m d c i) := by
  unfold goT; infer_instance
instance tdT_storable (d : Dev nD) (c : Fin (grid0.bound 0)) (i : Fin (grid0.bound 1)) : BI.Storable (upEmb : UEmb _ 𝕄) (tdT m d c i) := by
  unfold tdT tdRes; infer_instance

instance P_storable : (P (F := F) m).IsStorable where
  st q d c := match q with | 0 => (inferInstance : BI.Storable (upEmb : UEmb _ 𝕄) (bigSep Finset.univ fun i : Fin (grid0.bound 1) => goT m d (Fin.cast hC c) i))
  dn q d c := match q with | 0 => (inferInstance : BI.Storable (upEmb : UEmb _ 𝕄) (bigSep Finset.univ fun i : Fin (grid0.bound 1) => tdT m d (Fin.cast hC c) i))
  go q d c i := match q with | 0 => (inferInstance : BI.Storable (upEmb : UEmb _ 𝕄) (goT m d (Fin.cast hC c) (Fin.cast hS i)))
  td q d c i := match q with | 0 => (inferInstance : BI.Storable (upEmb : UEmb _ 𝕄) (tdT m d (Fin.cast hC c) (Fin.cast hS i)))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_v2_scv) (Memref.isWhole_whole _) (Memref.whole main_v3_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem goRes_of_goT (d : Dev nD) (c : Fin (grid0.bound 0)) (i : Fin (grid0.bound 1)) :
    goT m d c i = goRes d (coordsV c i) (tokT c i) (ringOf m d) (m (oLoc d)) := rfl

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (tokT (Fin.cast hC c) (Fin.cast hS i)) (ringOf m d) (m (oLoc d)) O W hO).trans (wp_mono frame _ _ fun _ => obl_post)

theorem vecSplit : (K (F := F)).VecSplit' (P m) 0 := by
  intro d c
  show (bigSep Finset.univ fun i : Fin (grid0.bound 1) => goT m d (Fin.cast hC c) i) ⊢ |={Set.univ}=> iprop(
      (bigSep Finset.univ fun i : Fin ((K (F := F)).nSub 0) => goT m d (Fin.cast hC c) (Fin.cast hS i))
      ∗ ((bigSep Finset.univ fun i : Fin ((K (F := F)).nSub 0) => tdT m d (Fin.cast hC c) (Fin.cast hS i))
          -∗ bigSep Finset.univ fun i : Fin (grid0.bound 1) => tdT m d (Fin.cast hC c) i))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Dealing the arrays to the subcores and gathering the output -/

omit [FloatOps F] in
theorem pts_congr {ℓ : Loc nD τ sig} {f g : Buf (Elt F) ℓ} (h : f = g) : (ℓ ↦{fullShare} f : sProp 𝕄) ⊢ ℓ ↦{fullShare} g :=
  Entails.of_eq (by rw [h])

omit [FloatOps F] in
/-- Two families side by side, over the grid. -/
theorem bigSep2_sep (X Y : Fin (grid0.bound 0) → Fin (grid0.bound 1) → sProp 𝕄) :
    (bigSep Finset.univ fun c => bigSep Finset.univ fun i => iprop(X c i ∗ Y c i))
      = iprop((bigSep Finset.univ fun c => bigSep Finset.univ fun i => X c i) ∗ bigSep Finset.univ fun c => bigSep Finset.univ fun i => Y c i) := by
  rw [← bigSep_sep']
  exact bigSep_congr fun c _ => bigSep_sep' _ _ _

omit [FloatOps F] in
/-- An array every subcore reads: a read share for each, what is left over dropped. -/
theorem deal_toks (ℓ : Loc nD τ sig) (f : Buf (Elt F) ℓ) :
    (ℓ ↦{fullShare} f : sProp 𝕄)
      ⊢ bigSep Finset.univ fun c : Fin (grid0.bound 0) => bigSep Finset.univ fun i : Fin (grid0.bound 1) => ℓ ↦{tokT c i} f := by
  refine (Transfers.pointsTo_toks_split fullShare (grid0.bound 0)).trans ?_
  refine sep_elim_right.trans ?_
  refine bigSep_mono fun c _ => ?_
  exact (Transfers.pointsTo_toks_split (tokC c) (grid0.bound 1)).trans sep_elim_right

omit [FloatOps F] in
/-- The output array is its 64 halves: the subcores' row blocks are pairwise disjoint and cover it. -/
theorem deal_out (d : Dev nD) (f : Buf (Elt F) (oLoc d)) :
    (oLoc d ↦{fullShare} f : sProp 𝕄)
      = bigSep Finset.univ fun c : Fin (grid0.bound 0) => bigSep Finset.univ fun i : Fin (grid0.bound 1) =>
          iprop((oLoc d ↦[rowsA (coordsV c i)]{fullShare} f) ∗ oLoc d ↦[rowsB (coordsV c i)]{fullShare} f) := by
  have h1 : (oLoc d ↦{fullShare} f : sProp 𝕄)
      = bigSep Finset.univ fun x : Fin (grid0.bound 0) × Fin (grid0.bound 1) => oLoc d ↦[rowsT x]{fullShare} f := by
    rw [← pointsTo_biUnion Finset.univ (ℓ := oLoc d) rowsT rowsT_disjoint, rowsT_cover]; try rfl
  rw [h1, bigSep_univ_prod]
  exact bigSep_congr fun c _ => bigSep_congr fun i _ =>
    BI.equiv_iff.mp ⟨(pointsTo_union (rowsAB_disjoint (coordsV c i))).1, (pointsTo_union (rowsAB_disjoint (coordsV c i))).2⟩

theorem st0_eq (d : Dev nD) :
    (bigSep Finset.univ fun c : Fin ((K (F := F)).nCore 0) => (P m).st 0 d c)
      = bigSep Finset.univ fun c : Fin (grid0.bound 0) => bigSep Finset.univ fun i : Fin (grid0.bound 1) => goT m d c i := rfl
theorem dn0_eq (d : Dev nD) :
    (bigSep Finset.univ fun c : Fin ((K (F := F)).nCore 0) => (P m).dn 0 d c)
      = bigSep Finset.univ fun c : Fin (grid0.bound 0) => bigSep Finset.univ fun i : Fin (grid0.bound 1) => tdT m d c i := rfl

theorem goT_eq (d : Dev nD) :
    (bigSep Finset.univ fun c : Fin (grid0.bound 0) => bigSep Finset.univ fun i : Fin (grid0.bound 1) => goT m d c i)
      = iprop((bigSep Finset.univ fun c : Fin (grid0.bound 0) => bigSep Finset.univ fun i : Fin (grid0.bound 1) =>
            (pLoc d ↦{tokT c i} ((fun _ => (7#32 : BitVec 32)) : Buf (Elt F) (pLoc d)) : sProp 𝕄))
        ∗ (bigSep Finset.univ fun c : Fin (grid0.bound 0) => bigSep Finset.univ fun i : Fin (grid0.bound 1) => (rLoc d ↦{tokT c i} ringOf m d : sProp 𝕄))
        ∗ (bigSep Finset.univ fun c : Fin (grid0.bound 0) => bigSep Finset.univ fun i : Fin (grid0.bound 1) =>
            iprop((oLoc d ↦[rowsA (coordsV c i)]{fullShare} m (oLoc d)) ∗ oLoc d ↦[rowsB (coordsV c i)]{fullShare} m (oLoc d)))) := by
  unfold goT
  rw [bigSep2_sep, bigSep2_sep]

theorem tdT_eq (d : Dev nD) :
    (bigSep Finset.univ fun c : Fin (grid0.bound 0) => bigSep Finset.univ fun i : Fin (grid0.bound 1) => tdT m d c i)
      = bigSep Finset.univ fun c : Fin (grid0.bound 0) => bigSep Finset.univ fun i : Fin (grid0.bound 1) =>
          iprop((oLoc d ↦[rowsA (coordsV c i)]{fullShare} (Cert.Spec.planeOf (ringOf m d) : Buf (Elt F) (oLoc d)))
            ∗ oLoc d ↦[rowsB (coordsV c i)]{fullShare} (Cert.Spec.planeOf (ringOf m d) : Buf (Elt F) (oLoc d))) := by
  unfold tdT tdRes; rfl

theorem h0 : (op0 (F := F)).bufs ⊆ S9 := show ({a2', p'} : Finset (DevRef τ sig)) ⊆ S9 by decide
theorem h1 : (op1 (F := F)).bufs ⊆ S9 := show ({a1', t'} : Finset (DevRef τ sig)) ⊆ S9 by decide
theorem h2 : (op2 (F := F)).bufs ⊆ S9 := show ({t', r'} : Finset (DevRef τ sig)) ⊆ S9 by decide
theorem h4 : (op4 (F := F)).bufs ⊆ S6 := show ({o', u'} : Finset (DevRef τ sig)) ⊆ S6 by decide
theorem h5 : (op5 (F := F)).bufs ⊆ S6 := show ({u', z'} : Finset (DevRef τ sig)) ⊆ S6 by decide

/-- What @main leaves the claim: the three arguments at their launch contents, the result at the ring's plane 9. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (zLoc d ↦{fullShare} (Cert.Spec.delayed (m (a1Loc d)) : Buf (Elt F) (zLoc d))))

/-- @main on device `d`'s TensorCore. -/
theorem hmain (hptr : ∀ d : Dev nD, m (a2Loc d) = fun _ => (7#32 : BitVec 32)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the pointer as a one-word array, the ring re-laid
  iapply (wp_hlo_within 𝒱 (SparseCore.T d) none Set.univ (op := op0) (S := S9) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S9) h2 (V := (op1 (F := F)).result ((op0 (F := F)).result (V0 m d)))) $$ [Hb Hheld]
  · isplitl [Hb] <;> iassumption
  iintro ⟨Hb, Hheld⟩
  rw [wp_ret]; imodintro
  ihave Hh := (Entails.of_eq (held_S9 (F := F) d (VA m d))) $$ Hheld
  icases Hh with ⟨Ha0, Ha1, Ha2, Hp, -, Hr, Ho, Hu, Hz⟩
  ihave Ha0' := (show (a0Loc d ↦{fullShare} VA m d a0' : sProp 𝕄) ⊢ a0Loc d ↦{fullShare} m (a0Loc d) from pts_congr (VA_a0 m d)) $$ Ha0
  ihave Ha1' := (show (a1Loc d ↦{fullShare} VA m d a1' : sProp 𝕄) ⊢ a1Loc d ↦{fullShare} m (a1Loc d) from pts_congr (VA_a1 m d)) $$ Ha1
  ihave Ha2' := (show (a2Loc d ↦{fullShare} VA m d a2' : sProp 𝕄) ⊢ a2Loc d ↦{fullShare} m (a2Loc d) from pts_congr (VA_a2 m d)) $$ Ha2
  ihave Hp' := (show (pLoc d ↦{fullShare} VA m d p' : sProp 𝕄) ⊢ pLoc d ↦{fullShare} ((fun _ => (7#32 : BitVec 32)) : Buf (Elt F) (pLoc d)) from pts_congr (VA_p m d (hptr d))) $$ Hp
  ihave Ho' := (show (oLoc d ↦{fullShare} VA m d o' : sProp 𝕄) ⊢ oLoc d ↦{fullShare} m (oLoc d) from pts_congr (VA_o m d)) $$ Ho
  ihave Hp2 := (deal_toks (F := F) (pLoc d) _) $$ Hp'
  ihave Hr2 := (deal_toks (F := F) (rLoc d) (ringOf m d)) $$ Hr
  ihave Ho2 := (Entails.of_eq (deal_out (F := F) d (m (oLoc d)))) $$ Ho'
  -- the call
  iapply ((K (F := F)).wp_run (D (F := F)) 𝒱 (EH := EH) (P := P m) κ d 0) $$ [Hst Hp2 Hr2 Ho2 Hb Ha0' Ha1' Ha2' Hu Hz]
  isplitr; · iexact Hctx
  isplitl [Hst]; · iexact Hst
  isplitl [Hp2 Hr2 Ho2]
  · rw [st0_eq, goT_eq]
    isplitl [Hp2]; · iexact Hp2
    isplitl [Hr2]; · iexact Hr2
    iexact Ho2
  iintro ⟨Hst, Hdn⟩
  ihave Hdn0 := (Entails.of_eq (dn0_eq m d)) $$ Hdn
  ihave Hdn' := (Entails.of_eq (tdT_eq m d)) $$ Hdn0
  ihave Ho := (Entails.of_eq (deal_out (F := F) d (Cert.Spec.planeOf (ringOf m d) : Buf (Elt F) (oLoc d))).symm) $$ Hdn'
  -- the output re-laid
  iapply (wp_hlo_within 𝒱 (SparseCore.T d) none Set.univ (op := op4) (S := S6) h4 (V := VB m d)) $$ [Hb Ha0' Ha1' Ha2' Ho Hu Hz]
  · isplitl [Hb]; · iexact Hb
    rw [held_S6, VB_a0, VB_a1, VB_a2, VB_o, VB_u, VB_z]
    isplitl [Ha0']; · iexact Ha0'
    isplitl [Ha1']; · iexact Ha1'
    isplitl [Ha2']; · iexact Ha2'
    isplitl [Ho]; · iexact Ho
    isplitl [Hu]; · iexact Hu
    iexact Hz
  iintro ⟨Hb, Hheld⟩
  rw [wp_ret]; imodintro
  iapply (wp_hlo_within 𝒱 (SparseCore.T d) none Set.univ (op := op5) (S := S6) h5 (V := (op4 (F := F)).result (VB m d))) $$ [Hb Hheld]
  · isplitl [Hb] <;> iassumption
  iintro ⟨Hb, Hheld⟩
  ihave Hh := (Entails.of_eq (held_S6 (F := F) d (VC m d))) $$ Hheld
  icases Hh with ⟨Ha0, Ha1, Ha2, -, -, Hz⟩
  rw [wp_ret]; imodintro; imodintro
  isplitl [Hst]; · iexact Hst
  isplitl [Ha0]; · iapply (show (a0Loc d ↦{fullShare} VC m d a0' : sProp 𝕄) ⊢ a0Loc d ↦{fullShare} m (a0Loc d) from pts_congr (VC_a0 m d)); iexact Ha0
  isplitl [Ha1]; · iapply (show (a1Loc d ↦{fullShare} VC m d a1' : sProp 𝕄) ⊢ a1Loc d ↦{fullShare} m (a1Loc d) from pts_congr (VC_a1 m d)); iexact Ha1
  isplitl [Ha2]; · iapply (show (a2Loc d ↦{fullShare} VC m d a2' : sProp 𝕄) ⊢ a2Loc d ↦{fullShare} m (a2Loc d) from pts_congr (VC_a2 m d)); iexact Ha2
  iapply (show (zLoc d ↦{fullShare} VC m d z' : sProp 𝕄) ⊢ zLoc d ↦{fullShare} (Cert.Spec.delayed (m (a1Loc d)) : Buf (Elt F) (zLoc d)) from pts_congr (VC_z m d)); iexact Hz

def fq (d : Dev nD) (s' : Phys nD τ sig (Elt F)) : Prop :=
  s'.mem.mem (zLoc d) = (Cert.Spec.delayed (m (a1Loc d)) : Buf (Elt F) (zLoc d)) ∧ s'.mem.mem (a0Loc d) = m (a0Loc d)
    ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hz⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := zLoc d) (I := Finset.univ) (q := fullShare) (f := (Cert.Spec.delayed (m (a1Loc d)) : Buf (Elt F) (zLoc d)))) $$ [HSI Hz]
  · isplitl [HSI] <;> iassumption
  icases H with %hz
  ipureintro
  exact ⟨funext fun i => hz i (Finset.mem_univ i), funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (zLoc c) = (Cert.Spec.delayed (m (a1Loc c)) : Buf (Elt F) (zLoc c)) ∧ r.2.mem (a0Loc c) = m (a0Loc c)
    ∧ r.2.mem (a1Loc c) = m (a1Loc c) ∧ r.2.mem (a2Loc c) = m (a2Loc c)

/-- Every weakly fair execution of the program's threads ends, nothing faulting, with the result array at the ring's
    plane 9 and the arguments as they were. -/
theorem run_main [∀ e, Nonempty (Elt F e)] (hptr : ∀ d : Dev nD, m (a2Loc d) = fun _ => (7#32 : BitVec 32)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ hptr) (fq m) (hfin m) (QC m) (fun _ h => h)

end Cert.Kernel.Run

end
-- ==== Proof.OutRowsIdeal.lean ====
/-
  The rows of the output the subcores write. The output array has 2048 row blocks (axis 0), each 4 × 128.
  The subcore at grid coordinates L = (c, s), c below 2 and s below 16, writes two rectangles, all of axes 1 and 2:
  rows [128 s + 64 c, +32) and rows [128 s + 64 c + 32, +32). With p = 4 s + 2 c + h (h the half, 0 or 1) these are
  the 64 consecutive blocks [32 p, 32 p + 32) of the 2048 rows: pairwise disjoint, and together all rows.
  Membership is read off the rectangle (a row bound only, the other two axes being whole); disjointness and the cover
  are then arithmetic on the row number r: s = r / 128, c = (r / 64) mod 2.
-/
import proofs.«203186_g146028888480_cont_week2b_1412_22_alg».proof.Proof.Gen.KernelIdeal
import Idealize.ShloMosaic.Lib.Pipeline.Value

noncomputable section

open Cert.KernelIdeal Idealize.ShloMosaic

namespace Cert.KernelIdeal.Rows

/-- The whole output array, as the subcores are handed it. -/
abbrev oW : Memref sig .scVector .hbm S2048x4x128 .f32 := Memref.whole main_v3_scv
/-- The first rectangle subcore L writes. -/
abbrev outA (L : grid0.Coords) : Memref sig .scVector .hbm S32x4x128 .f32 :=
  (oW).slice (Rect.unit (s := S2048x4x128) (k0_off3 L) S32x4x128.size (Facts₀.k0_off3_inb L)) (fun _ => rfl)
/-- The second rectangle subcore L writes. -/
abbrev outB (L : grid0.Coords) : Memref sig .scVector .hbm S32x4x128 .f32 :=
  (oW).slice (Rect.unit (s := S2048x4x128) (k0_off4 L) S32x4x128.size (Facts₀.k0_off4_inb L)) (fun _ => rfl)
/-- The grid coordinates of core c, subcore s. -/
def coordsV (c : Fin (grid0.bound 0)) (s : Fin (grid0.bound 1)) : grid0.Coords :=
  fun | 0 => c | 1 => s | ⟨_ + 2, h⟩ => absurd h (Nat.not_lt.2 (Nat.le_add_left _ _))
/-- The elements of the output under the first rectangle. -/
abbrev rowsA (L : grid0.Coords) : Finset S2048x4x128.Idx := (outA L).view.set
/-- The elements of the output under the second rectangle. -/
abbrev rowsB (L : grid0.Coords) : Finset S2048x4x128.Idx := (outB L).view.set
/-- The elements of the output one subcore writes. -/
abbrev rowsT (x : Fin (grid0.bound 0) × Fin (grid0.bound 1)) : Finset S2048x4x128.Idx :=
  rowsA (coordsV x.1 x.2) ∪ rowsB (coordsV x.1 x.2)

/-- A unit rectangle of 32 row blocks from row o, whole on the other two axes, holds exactly the indices whose row
    is in [o, o + 32). -/
theorem mem_unit_rows (o : Nat) (inb : ∀ a, (![o, 0, 0] : Fin 3 → Nat) a + S32x4x128.size a ≤ S2048x4x128.size a)
    (j : S2048x4x128.Idx) :
    j ∈ (Rect.unit (s := S2048x4x128) ![o, 0, 0] S32x4x128.size inb).set ↔ o ≤ (j 0).val ∧ (j 0).val < o + 32 := by
  rw [Rect.mem_set_unit]
  constructor
  · intro h
    exact h 0
  · intro h a
    match a with
    | ⟨0, _⟩ => exact h
    | ⟨1, _⟩ =>
      have h1 : (j 1).val < 4 := (j 1).isLt
      exact ⟨Nat.zero_le _, by show (j 1).val < 0 + 4; omega⟩
    | ⟨2, _⟩ =>
      have h2 : (j 2).val < 128 := (j 2).isLt
      exact ⟨Nat.zero_le _, by show (j 2).val < 0 + 128; omega⟩

/-- A unit rectangle at an offset equal to (o, 0, 0). -/
theorem mem_unit_rows_of_eq (off : Fin 3 → Nat) (o : Nat) (e : off = ![o, 0, 0])
    (inb : ∀ a, off a + S32x4x128.size a ≤ S2048x4x128.size a) (j : S2048x4x128.Idx) :
    j ∈ (Rect.unit (s := S2048x4x128) off S32x4x128.size inb).set ↔ o ≤ (j 0).val ∧ (j 0).val < o + 32 := by
  subst e
  exact mem_unit_rows o inb j

/-- The first rectangle of subcore L: rows [128 s + 64 c, +32). -/
theorem mem_rowsA (L : grid0.Coords) (j : S2048x4x128.Idx) :
    j ∈ rowsA L ↔ 128 * (L 1).val + 64 * (L 0).val ≤ (j 0).val ∧ (j 0).val < 128 * (L 1).val + 64 * (L 0).val + 32 := by
  have e : rowsA L = (Rect.unit (s := S2048x4x128) (k0_off3 L) S32x4x128.size (Facts₀.k0_off3_inb L)).set :=
    View.set_slice_whole main_v3_scv _
  rw [e]
  exact mem_unit_rows_of_eq _ _ (Gen.k0_off3_eq L) _ j

/-- The second rectangle of subcore L: rows [128 s + 64 c + 32, +32). -/
theorem mem_rowsB (L : grid0.Coords) (j : S2048x4x128.Idx) :
    j ∈ rowsB L ↔ 128 * (L 1).val + 64 * (L 0).val + 32 ≤ (j 0).val ∧ (j 0).val < 128 * (L 1).val + 64 * (L 0).val + 64 := by
  have e : rowsB L = (Rect.unit (s := S2048x4x128) (k0_off4 L) S32x4x128.size (Facts₀.k0_off4_inb L)).set :=
    View.set_slice_whole main_v3_scv _
  rw [e]
  exact (mem_unit_rows_of_eq _ _ (Gen.k0_off4_eq L) _ j).trans (by omega)

/-- What one subcore writes: rows [128 s + 64 c, +64). -/
theorem mem_rowsT (x : Fin (grid0.bound 0) × Fin (grid0.bound 1)) (j : S2048x4x128.Idx) :
    j ∈ rowsT x ↔ 128 * x.2.val + 64 * x.1.val ≤ (j 0).val ∧ (j 0).val < 128 * x.2.val + 64 * x.1.val + 64 := by
  rw [Finset.mem_union, mem_rowsA, mem_rowsB]
  show (128 * x.2.val + 64 * x.1.val ≤ (j 0).val ∧ (j 0).val < 128 * x.2.val + 64 * x.1.val + 32) ∨
      (128 * x.2.val + 64 * x.1.val + 32 ≤ (j 0).val ∧ (j 0).val < 128 * x.2.val + 64 * x.1.val + 64) ↔ _
  omega

/-- The two rectangles of one subcore do not meet. -/
theorem rowsAB_disjoint (L : grid0.Coords) : Disjoint (rowsA L) (rowsB L) := by
  refine Finset.disjoint_left.2 fun j hA hB => ?_
  rw [mem_rowsA] at hA
  rw [mem_rowsB] at hB
  omega

/-- Different subcores write different rows. -/
theorem rowsT_disjoint : ∀ x ∈ (Finset.univ : Finset (Fin (grid0.bound 0) × Fin (grid0.bound 1))),
    ∀ y ∈ (Finset.univ : Finset (Fin (grid0.bound 0) × Fin (grid0.bound 1))), x ≠ y → Disjoint (rowsT x) (rowsT y) := by
  intro x _ y _ hne
  refine Finset.disjoint_left.2 fun j hx hy => hne ?_
  rw [mem_rowsT] at hx hy
  have hx1 : x.1.val < 2 := x.1.isLt
  have hy1 : y.1.val < 2 := y.1.isLt
  refine Prod.ext (Fin.ext ?_) (Fin.ext ?_) <;> omega

/-- Together the subcores write every row. -/
theorem rowsT_cover : (Finset.univ : Finset (Fin (grid0.bound 0) × Fin (grid0.bound 1))).biUnion rowsT = Finset.univ := by
  refine Finset.eq_univ_iff_forall.2 fun j => ?_
  have hr : (j 0).val < 2048 := (j 0).isLt
  refine Finset.mem_biUnion.2 ⟨(⟨((j 0).val / 64) % 2, Nat.mod_lt _ (by decide)⟩, ⟨(j 0).val / 128, by show _ < 16; omega⟩),
    Finset.mem_univ _, (mem_rowsT _ j).2 ?_⟩
  show 128 * ((j 0).val / 128) + 64 * (((j 0).val / 64) % 2) ≤ (j 0).val ∧
      (j 0).val < 128 * ((j 0).val / 128) + 64 * (((j 0).val / 64) % 2) + 64
  omega

end Cert.KernelIdeal.Rows

end
-- ==== Proof.WordIdeal.lean ====
/-
  The pointer word a subcore reads. The one-word pointer array (holding 7) is copied into lane 0 of the 16-lane
  scratch; the scratch is loaded whole; lane 0 of the loaded vector is taken (a shape cast of 16 lanes to 16 lanes,
  a slice of one lane at offset 0, the entry at 0). Lane 0 lies under the copy, the last write to the scratch, so it
  reads the copied word, whatever the scratch held before: the word is 7.
-/
import proofs.«203186_g146028888480_cont_week2b_1412_22_alg».proof.Proof.Gen.KernelIdeal.Skeleton
import Idealize.ShloMosaic.Lib.Pipeline.Value
import Idealize.ShloMosaic.Lib.ValueIdx
import Idealize.ShloMosaic.Lib.Writes

noncomputable section

open Cert.KernelIdeal Idealize.ShloMosaic

namespace Cert.KernelIdeal.Word

variable {F : FTy → Type} [FloatOps F]

/-- Lane 0 of the 16-lane scratch. -/
abbrev lane0 : S16.Idx := ValueIdx.ix1 (n := 16) 0
/-- The one index of a one-lane vector. -/
abbrev one0 : S1.Idx := ValueIdx.ix1 (n := 1) 0

/-- Loading the scratch whole reads lane 0 at lane 0 … -/
theorem whole_idx_lane0 :
    (Rect.unit (s := S16) ![0] S16.size Facts₀.inb_S16_S16_0).toLoadRect.idx lane0 = lane0 := by
  funext a; apply Fin.ext
  rw [LoadRect.idx_apply, Subsingleton.elim a 0]
  rfl

/-- … and lane 0 is the one element under the one-lane copy at offset 0. -/
theorem copy_emb_lane0 :
    (Rect.unit (s := S16) ![0] S1.size Facts₀.inb_S16_S1_0).emb one0 = lane0 := by
  funext a; apply Fin.ext
  rw [Rect.emb_apply, Subsingleton.elim a 0]
  rfl

/-- The word the subcore takes from its scratch after the copy of the pointer array is 7. -/
theorem word_eq (f0 : (Memref.whole (cc0_scratch0 : Ref sig .scVector) : Memref sig .scVector .vmem S16 .i32).view.ty.Contents (Elt F)) :
    extractAt ![0]
      (Gen.k0_pay1 (F := F)
        (View.readAt (Elt F) (Memref.whole cc0_scratch0 : Memref sig .scVector .vmem S16 .i32).view
          (Rect.unit (s := S16) ![0] S16.size Facts₀.inb_S16_S16_0).toLoadRect
          ((Memref.whole cc0_scratch0 : Memref sig .scVector .vmem S16 .i32).view.writes (Elt F) f0
            [⟨Rect.unit (s := S16) ![0] S1.size Facts₀.inb_S16_S1_0,
                ReadAs.same.apply (View.read (Elt F) (Memref.whole main_v0_scv : Memref sig .scVector .hbm S1 .i32).view fun _ => 7#32)⟩])))
      Facts₀.inpos_S1_p0 =
    7#32 := by
  -- the entry at 0 of the one-lane slice is lane 0 of the shape cast, which is the loaded vector
  unfold extractAt Gen.k0_pay1
  refine (extractStridedSlice_apply ![0] _ Facts₀.slices_S16_o0_S1 _ lane0 ?_).trans ?_
  · intro a
    rw [Subsingleton.elim a 0]
    rfl
  -- lane 0 of the whole load is the element under the copy: it reads the copied word
  rw [shapeCast_self, View.readAt_apply, whole_idx_lane0, ← copy_emb_lane0, View.read_writes_cons_emb]
  rfl

end Cert.KernelIdeal.Word

end
-- ==== Proof.HalvesIdeal.lean ====
/-
  The values a subcore leaves in its two halves of the output. The subcore at L copies the 32 row blocks
  [base, base + 32) of plane (w + 2) mod 33 of the tiled ring (33 × 2048 × 4 × 128) into a scratch (32 × 4 × 128) and
  then copies the scratch onto rows [base, base + 32) of the output (2048 × 4 × 128); base = 128 s + 64 c for the first
  half and 32 more for the second. At w = 7 the plane is 9, so output entry (base + y0, y1, y2) ends as ring entry
  (9, base + y0, y1, y2): the plane read of the specification. The proof reads the last write to the output at an
  element under it, reads the scratch after it was written whole, and matches the two index maps: the source slice
  with its leading unit axis dropped sends (y0, y1, y2) to (9, base + y0, y1, y2), the output slice to (base + y0, y1, y2).
-/
import proofs.«203186_g146028888480_cont_week2b_1412_22_alg».proof.Proof.OutRowsIdeal
import proofs.«203186_g146028888480_cont_week2b_1412_22_alg».proof.Proof.Spec
import Idealize.ShloMosaic.Lib.Writes
import Idealize.ShloMosaic.Lib.Pipeline.Value
import Idealize.ShloMosaic.Lib.ValueIdx

noncomputable section

open Cert.KernelIdeal Idealize.ShloMosaic

namespace Cert.KernelIdeal.Halves

open Cert.KernelIdeal.Rows

variable {F : FTy → Type} [FloatOps F]

/-- At pointer 7 the first source slice starts at plane 9, row 128 s + 64 c. -/
theorem k0_off1_seven : ∀ L : grid0.Coords, k0_off1 L 7#32 = ![9, 128 * (L 1).val + 64 * (L 0).val, 0, 0] := by decide +kernel
/-- At pointer 7 the second source slice starts at plane 9, row 128 s + 64 c + 32. -/
theorem k0_off2_seven : ∀ L : grid0.Coords, k0_off2 L 7#32 = ![9, 128 * (L 1).val + 64 * (L 0).val + 32, 0, 0] := by decide +kernel

/-- A unit-stride rectangle sends a coordinate to the offset plus the coordinate. -/
theorem unit_emb_val {s : Shape} (off size : Fin s.rank → Nat) (inb : ∀ a, off a + size a ≤ s.size a)
    (z : (Rect.unit (s := s) off size inb).shape.Idx) (a : Fin s.rank) :
    ((Rect.unit (s := s) off size inb).emb z a).val = off a + (z a).val := by
  rw [Rect.emb_apply]
  show off a + 1 * (z a).val = off a + (z a).val
  rw [Nat.one_mul]

/-- Dropping the leading unit axis: (y0, y1, y2) of 32 × 4 × 128 is matched with (0, y0, y1, y2) of 1 × 32 × 4 × 128. -/
theorem reshape_drop_unit (h : S32x4x128.numel = (⟨4, S1x32x4x128.size⟩ : Shape).numel) (y : S32x4x128.Idx) :
    Shape.reshapeEquiv h y = ValueIdx.ix4 (n0 := 1) (n1 := 32) (n2 := 4) (n3 := 128) 0 (y 0) (y 1) (y 2) := by
  refine Shape.reshapeEquiv_eq_of_rowMajor h ?_
  rw [Shape.rowMajor_val_four, Shape.rowMajor_val_three]
  show ((0 * 32 + (y 0).val) * 4 + (y 1).val) * 128 + (y 2).val = ((y 0).val * 4 + (y 1).val) * 128 + (y 2).val
  omega

/-- The index map of a source slice (one plane, 32 row blocks from row o, unit axis dropped) against the index map of
    an output slice (32 row blocks from row o): the source element is the plane-9 element over the output element. -/
theorem emb_match (off : Fin 4 → Nat) (off' : Fin 3 → Nat) (o : Nat) (e : off = ![9, o, 0, 0]) (e' : off' = ![o, 0, 0])
    (inb : ∀ a, off a + S1x32x4x128.size a ≤ S33x2048x4x128.size a)
    (inb' : ∀ a, off' a + S32x4x128.size a ≤ S2048x4x128.size a)
    (h : S32x4x128.numel = (⟨4, S1x32x4x128.size⟩ : Shape).numel) (y : S32x4x128.Idx) :
    (Rect.unit (s := S33x2048x4x128) off S1x32x4x128.size inb).emb (Shape.reshapeEquiv h y)
      = ValueIdx.ix4 (n0 := 33) (n1 := 2048) (n2 := 4) (n3 := 128) Spec.slot
          ((Rect.unit (s := S2048x4x128) off' S32x4x128.size inb').emb y 0)
          ((Rect.unit (s := S2048x4x128) off' S32x4x128.size inb').emb y 1)
          ((Rect.unit (s := S2048x4x128) off' S32x4x128.size inb').emb y 2) := by
  subst e e'
  rw [reshape_drop_unit h y]
  funext a
  apply Fin.ext
  rw [unit_emb_val]
  match a with
  | ⟨0, _⟩ => rfl
  | ⟨1, _⟩ =>
    show _ = ((Rect.unit (s := S2048x4x128) ![o, 0, 0] S32x4x128.size inb').emb y 0).val
    rw [unit_emb_val]; rfl
  | ⟨2, _⟩ =>
    show _ = ((Rect.unit (s := S2048x4x128) ![o, 0, 0] S32x4x128.size inb').emb y 1).val
    rw [unit_emb_val]; rfl
  | ⟨3, _⟩ =>
    show _ = ((Rect.unit (s := S2048x4x128) ![o, 0, 0] S32x4x128.size inb').emb y 2).val
    rw [unit_emb_val]; rfl

/-- The first half: after the two copies, every element of the first output rectangle holds the plane-9 entry over it. -/
theorem val_A (L : grid0.Coords) (w : BitVec 32) (hw : k0_chk1 L w) (h7 : w = 7#32)
    (fr : (Memref.whole (main_v2_scv : Ref sig .scVector) : Memref sig .scVector .hbm S33x2048x4x128 .f32).view.ty.Contents (Elt F))
    (fo : (Memref.whole (main_v3_scv : Ref sig .scVector) : Memref sig .scVector .hbm S2048x4x128 .f32).view.ty.Contents (Elt F))
    (f1 : (Memref.whole (cc0_scratch1 : Ref sig .scVector) : Memref sig .scVector .vmem S32x4x128 .f32).view.ty.Contents (Elt F)) :
    ∀ j ∈ (outA L).view.set,
      (outA L).view.writes (Elt F) fo
          [⟨Rect.whole S32x4x128,
              ReadAs.same.apply
                (View.read (Elt F) (Memref.whole cc0_scratch1 : Memref sig .scVector .vmem S32x4x128 .f32).view
                  (View.write (Elt F) (Memref.whole cc0_scratch1 : Memref sig .scVector .vmem S32x4x128 .f32).view f1
                    (ReadAs.same.apply
                      (View.read (Elt F)
                        (((Memref.whole main_v2_scv : Memref sig .scVector .hbm S33x2048x4x128 .f32).slice
                                (Rect.unit (s := S33x2048x4x128) (k0_off1 L w) S1x32x4x128.size (k0_off1_inb L w hw)) (fun _ => rfl)).squeeze
                            S32x4x128 Facts₀.squeezes_S1x32x4x128_S32x4x128).view
                        fr))
                    Finset.univ))⟩]
          j =
        (Cert.Spec.planeOf fr : S2048x4x128.Idx → F .f32) j := by
  subst h7
  intro j hj
  obtain ⟨y, -, rfl⟩ := Finset.mem_map.1 hj
  -- the contents at the element under y are what the output slice reads at y
  refine ((View.read_apply _ _).trans (cast_eq _ _)).symm.trans ?_
  -- y is under the last write, which covers the whole slice: it reads the payload at y
  refine (congrArg _ (Rect.emb_whole_apply S32x4x128 y).symm).trans ((View.read_writes_cons_emb _ _ (Rect.whole S32x4x128) _ [] y).trans ?_)
  -- the payload is the scratch read after it was written whole: what was written, the source slice's reading of the ring
  simp only [Memref.view_whole, View.read_whole, View.write_whole_univ]
  refine ((View.read_apply _ _).trans (cast_eq _ _)).trans ?_
  -- the two index maps
  exact congrArg fr (emb_match _ _ _ (k0_off1_seven L) (Gen.k0_off3_eq L) _ _ _ y)

/-- The second half: the same for the second output rectangle. -/
theorem val_B (L : grid0.Coords) (w : BitVec 32) (hw : k0_chk1 L w) (h7 : w = 7#32)
    (fr : (Memref.whole (main_v2_scv : Ref sig .scVector) : Memref sig .scVector .hbm S33x2048x4x128 .f32).view.ty.Contents (Elt F))
    (fo : (Memref.whole (main_v3_scv : Ref sig .scVector) : Memref sig .scVector .hbm S2048x4x128 .f32).view.ty.Contents (Elt F))
    (f2 : (Memref.whole (cc0_scratch2 : Ref sig .scVector) : Memref sig .scVector .vmem S32x4x128 .f32).view.ty.Contents (Elt F)) :
    ∀ j ∈ (outB L).view.set,
      (outB L).view.writes (Elt F) fo
          [⟨Rect.whole S32x4x128,
              ReadAs.same.apply
                (View.read (Elt F) (Memref.whole cc0_scratch2 : Memref sig .scVector .vmem S32x4x128 .f32).view
                  (View.write (Elt F) (Memref.whole cc0_scratch2 : Memref sig .scVector .vmem S32x4x128 .f32).view f2
                    (ReadAs.same.apply
                      (View.read (Elt F)
                        (((Memref.whole main_v2_scv : Memref sig .scVector .hbm S33x2048x4x128 .f32).slice
                                (Rect.unit (s := S33x2048x4x128) (k0_off2 L w) S1x32x4x128.size (k0_off2_inb L w hw)) (fun _ => rfl)).squeeze
                            S32x4x128 Facts₀.squeezes_S1x32x4x128_S32x4x128).view
                        fr))
                    Finset.univ))⟩]
          j =
        (Cert.Spec.planeOf fr : S2048x4x128.Idx → F .f32) j := by
  subst h7
  intro j hj
  obtain ⟨y, -, rfl⟩ := Finset.mem_map.1 hj
  -- the contents at the element under y are what the output slice reads at y
  refine ((View.read_apply _ _).trans (cast_eq _ _)).symm.trans ?_
  -- y is under the last write, which covers the whole slice: it reads the payload at y
  refine (congrArg _ (Rect.emb_whole_apply S32x4x128 y).symm).trans ((View.read_writes_cons_emb _ _ (Rect.whole S32x4x128) _ [] y).trans ?_)
  -- the payload is the scratch read after it was written whole: what was written, the source slice's reading of the ring
  simp only [Memref.view_whole, View.read_whole, View.write_whole_univ]
  refine ((View.read_apply _ _).trans (cast_eq _ _)).trans ?_
  -- the two index maps
  exact congrArg fr (emb_match _ _ _ (k0_off2_seven L) (Gen.k0_off4_eq L) _ _ _ y)

end Cert.KernelIdeal.Halves

end
-- ==== Proof.KIdealTile.lean ====
/-
  The SparseCore program's run. @main reshapes the pointer to a one-word array and re-lays the ring as
  (plane, row block, source, lane); the SparseCore call has each of the 32 vector subcores read the word, take
  plane (word + 2) mod 33, and move its own 64 row blocks of that plane to the output in two halves of 32, each
  half through a scratch buffer of its own and a semaphore of its own; @main then re-lays the output as
  (source, position). Every subcore reads the same word and the same ring, which nothing writes during the call,
  and writes row blocks no other subcore touches, so the order in which the subcores and the copy engine take
  their steps does not matter: each half ends holding the ring's plane 9 at its own row blocks.
-/
import proofs.«203186_g146028888480_cont_week2b_1412_22_alg».proof.Defs
import proofs.«203186_g146028888480_cont_week2b_1412_22_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«203186_g146028888480_cont_week2b_1412_22_alg».proof.Proof.Gen.KernelIdeal
import proofs.«203186_g146028888480_cont_week2b_1412_22_alg».proof.Proof.Gen.KernelIdeal.Skeleton
import proofs.«203186_g146028888480_cont_week2b_1412_22_alg».proof.Proof.OutRowsIdeal
import proofs.«203186_g146028888480_cont_week2b_1412_22_alg».proof.Proof.WordIdeal
import proofs.«203186_g146028888480_cont_week2b_1412_22_alg».proof.Proof.HalvesIdeal

noncomputable section

namespace Cert.KernelIdeal.Run

open Cert.KernelIdeal Cert.KernelIdeal.Gen Cert.KernelIdeal.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "pW" => (Memref.whole Cert.KernelIdeal.main_v0_scv : Memref Cert.KernelIdeal.sig Kind.scVector Space.hbm Cert.KernelIdeal.S1 EltTy.i32)
local notation "rW" => (Memref.whole Cert.KernelIdeal.main_v2_scv : Memref Cert.KernelIdeal.sig Kind.scVector Space.hbm Cert.KernelIdeal.S33x2048x4x128 EltTy.f32)
local notation "sP" => (Memref.whole Cert.KernelIdeal.cc0_scratch0 : Memref Cert.KernelIdeal.sig Kind.scVector Space.vmem Cert.KernelIdeal.S16 EltTy.i32)
local notation "sA" => (Memref.whole Cert.KernelIdeal.cc0_scratch1 : Memref Cert.KernelIdeal.sig Kind.scVector Space.vmem Cert.KernelIdeal.S32x4x128 EltTy.f32)
local notation "sB" => (Memref.whole Cert.KernelIdeal.cc0_scratch2 : Memref Cert.KernelIdeal.sig Kind.scVector Space.vmem Cert.KernelIdeal.S32x4x128 EltTy.f32)

abbrev pLoc (d : Dev nD) : Loc nD τ sig := (SparseCore.T d).loc main_v0
abbrev rLoc (d : Dev nD) : Loc nD τ sig := (SparseCore.T d).loc main_v2
abbrev oLoc (d : Dev nD) : Loc nD τ sig := (SparseCore.T d).loc main_v3

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev semA (c : Fin τ.nSC) (i : Fin τ.nSub) : GSem nD τ sig := (V d c i, .dma cc0_scratch3.sem)
abbrev semB (c : Fin τ.nSC) (i : Fin τ.nSub) : GSem nD τ sig := (V d c i, .dma cc0_scratch4.sem)
abbrev semP (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (semA d (cV L) (jV L)) 0 ∗ semVal (semB d (cV L) (jV L)) 0 ∗ semVal (semP d (cV L) (jV L)) 0
          ∗ bigSep ((((ownCells (V d (cV L) (jV L))).erase (semA d (cV L) (jV L))).erase (semB d (cV L) (jV L))).erase (semP d (cV L) (jV L)))
              fun g => semVal g 0) := by
  unfold SparseCore.Cfg.ownSems0
  rw [SparseCore.bigSep_erase' ((mem_ownCells (g := semA d (cV L) (jV L))).mpr ⟨rfl, by
      show (SemLoc.dma cc0_scratch3.sem : SemLoc sig).isScoped .scVector = true; decide⟩),
    SparseCore.bigSep_erase' (Finset.mem_erase.mpr ⟨by simp [semA, semB]; decide, (mem_ownCells (g := semB d (cV L) (jV L))).mpr ⟨rfl, by
      show (SemLoc.dma cc0_scratch4.sem : SemLoc sig).isScoped .scVector = true; decide⟩⟩),
    SparseCore.bigSep_erase' (Finset.mem_erase.mpr ⟨by simp [semB, semP]; decide, Finset.mem_erase.mpr ⟨by simp [semA, semP]; decide,
      (mem_ownCells (g := semP d (cV L) (jV L))).mpr ⟨rfl, by show (SemLoc.dma cc0_scoped0.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The side condition on the word read holds at 7, at every subcore. -/
theorem chk7 : ∀ L : grid0.Coords, k0_chk1 L 7#32 := by decide +kernel

/-- What a subcore is handed: a read share of the pointer word (at 7) and of the ring, and its two output halves. -/
def goRes (q : PosShare TreeShare) (fr : Buf (Elt F) (rLoc d)) (fo : Buf (Elt F) (oLoc d)) : sProp 𝕄 :=
  iprop(((pW).view.loc (V d (cV L) (jV L)) ↦{q} ((fun _ => (7#32 : BitVec 32)) : Buf (Elt F) (pLoc d)))
    ∗ ((rW).view.loc (V d (cV L) (jV L)) ↦{q} fr)
    ∗ ((outA L).view.loc (V d (cV L) (jV L)) ↦[(outA L).view.set]{fullShare} fo)
    ∗ ((outB L).view.loc (V d (cV L) (jV L)) ↦[(outB L).view.set]{fullShare} fo))

omit [FloatOps F] in
theorem pts_sP (f : Buf (Elt F) ((V d (cV L) (jV L)).loc cc0_scratch0)) :
    ((sP).view.loc (V d (cV L) (jV L)) ↦{fullShare} f : sProp 𝕄) = (V d (cV L) (jV L)).loc cc0_scratch0 ↦{fullShare} f := rfl
omit [FloatOps F] in
theorem pts_sA (f : Buf (Elt F) ((V d (cV L) (jV L)).loc cc0_scratch1)) :
    ((sA).view.loc (V d (cV L) (jV L)) ↦{fullShare} f : sProp 𝕄) = (V d (cV L) (jV L)).loc cc0_scratch1 ↦{fullShare} f := rfl
omit [FloatOps F] in
theorem pts_sB (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl

/-- What a subcore hands back: its two output halves holding the ring's plane 9 at their own row blocks. -/
def tdRes (fr : Buf (Elt F) (rLoc d)) : sProp 𝕄 :=
  iprop((oLoc d ↦[rowsA L]{fullShare} (Cert.Spec.planeOf fr : Buf (Elt F) (oLoc d)))
    ∗ (oLoc d ↦[rowsB L]{fullShare} (Cert.Spec.planeOf fr : Buf (Elt F) (oLoc d))))

omit [FloatOps F] in
theorem pts_outA (f : Buf (Elt F) (oLoc d)) :
    ((outA L).view.loc (V d (cV L) (jV L)) ↦[(outA L).view.set]{fullShare} f : sProp 𝕄) = oLoc d ↦[rowsA L]{fullShare} f := rfl
omit [FloatOps F] in
theorem pts_outB (f : Buf (Elt F) (oLoc d)) :
    ((outB L).view.loc (V d (cV L) (jV L)) ↦[(outB L).view.set]{fullShare} f : sProp 𝕄) = oLoc d ↦[rowsB L]{fullShare} f := rfl

omit [FloatOps F] in
/-- Two read tokens of one array, side by side. -/
theorem toks_two (ℓ : Loc nD τ sig) (q : PosShare TreeShare) (f : Buf (Elt F) ℓ) :
    (bigSep Finset.univ (fun i : Fin 2 => (ℓ ↦{Transfers.shareTok q 2 i} f : sProp 𝕄)))
      = iprop((ℓ ↦{Transfers.shareTok q 2 0} f) ∗ ℓ ↦{Transfers.shareTok q 2 1} f) := by
  rw [show (Finset.univ : Finset (Fin 2)) = {0, 1} by decide, SparseCore.bigSep_insert' (by decide), bigSep_singleton]

/-- One subcore's task, from read shares of the pointer word and the ring and its two output halves. -/
theorem tile_body (hF : (K (F := F)).Facts) (q : PosShare TreeShare) (fr : Buf (Elt F) (rLoc d)) (fo : Buf (Elt F) (oLoc d))
    (O : CellTallies nD τ sig (HIx 1)) (W : Waits sig (HIx 1)) (hO : ∀ g, O g none = 0) :
    (iprop(levAts (K (F := F)).L (K (F := F)).lev ∗ emp
        ∗ goRes d L q fr fo
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_body L pW (Memref.isWhole_whole _) rW (Memref.isWhole_whole _) oW (Memref.isWhole_whole _)
            sP (Memref.isWhole_whole _) sA (Memref.isWhole_whole _) sB (Memref.isWhole_whole _) cc0_scratch3 cc0_scratch4 cc0_scoped0)
          fun _ => (iprop(tdRes d L fr ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__sc_body_eq_skeleton]; unfold cc0__sc_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold goRes
  iintro ⟨#Hlv, -, ⟨Hp, Hr, HoA, HoB⟩, ⟨⟨%f0, Hs0⟩, ⟨%f1, Hs1⟩, ⟨%f2, Hs2⟩, Hbufs⟩, ⟨HsemA, HsemB, HsemP, Hsems⟩, HO⟩
  ihave Hmw := ((K (F := F)).mayWaits_none (thr := V d (cV L) (jV L)) hO) $$ Hlv
  ihave Hs0' := (Entails.of_eq (pts_sP (F := F) d L _).symm) $$ Hs0
  ihave Hs1' := (Entails.of_eq (pts_sA (F := F) d L _).symm) $$ Hs1
  ihave Hs2' := (Entails.of_eq (pts_sB (F := F) d L _).symm) $$ Hs2
  -- the ring is read by two copies at once, one per semaphore: a read token for each
  ihave Hr' := (Transfers.pointsTo_toks_split q 2) $$ Hr
  icases Hr' with ⟨-, Htoks⟩
  ihave Htoks' := (Entails.of_eq (toks_two (F := F) ((rW).view.loc (V d (cV L) (jV L))) q fr)) $$ Htoks
  icases Htoks' with ⟨Hr0, Hr1⟩
  sl_exec
  have h6 : tile_body.sl.v6 d L f0 = 7#32 := by
    unfold tile_body.sl.v6 tile_body.sl.v3 tile_body.sl.dma0
    exact Cert.KernelIdeal.Word.word_eq f0
  have hchk : k0_chk1 L (tile_body.sl.v6 d L f0) := h6 ▸ chk7 L
  sl_exec
  have hvalA : ∀ j ∈ (outA L).view.set,
      ((outA L).view.writes (Elt F) fo [⟨Rect.whole S32x4x128, tile_body.sl.dma0_3 d L fr f0 f1 hchk⟩]) j
        = (Cert.Spec.planeOf fr : Buf (Elt F) (oLoc d)) j := by
    unfold tile_body.sl.dma0_3 tile_body.sl.dma0_1
    exact Cert.KernelIdeal.Halves.val_A L _ hchk h6 fr fo f1
  have hvalB : ∀ j ∈ (outB L).view.set,
      ((outB L).view.writes (Elt F) fo [⟨Rect.whole S32x4x128, tile_body.sl.dma0_4 d L fr f0 f2 hchk⟩]) j
        = (Cert.Spec.planeOf fr : Buf (Elt F) (oLoc d)) j := by
    unfold tile_body.sl.dma0_4 tile_body.sl.dma0_2
    exact Cert.KernelIdeal.Halves.val_B L _ hchk h6 fr fo f2
  sl_step
  unfold tdRes
  isplitl [HoA HoB]
  · isplitl [HoA]
    · ihave HA := (Entails.of_eq (pointsTo_congr (q := fullShare) hvalA)) $$ HoA
      iapply (Entails.of_eq (pts_outA (F := F) d L _)); iexact HA
    · ihave HB := (Entails.of_eq (pointsTo_congr (q := fullShare) hvalB)) $$ HoB
      iapply (Entails.of_eq (pts_outB (F := F) d L _)); iexact HB
  isplitl [Hs0' Hs1' Hs2' Hbufs]
  · isplitl [Hs0']; · iexists _; iexact Hs0'
    isplitl [Hs1']; · iexists _; iexact Hs1'
    isplitl [Hs2']; · iexists _; iexact Hs2'
    iexact Hbufs
  isplitl [HsemA HsemB HsemP Hsems]
  · isplitl [HsemA]; · iexact HsemA
    isplitl [HsemB]; · iexact HsemB
    isplitl [HsemP]; · iexact HsemP
    iexact Hsems
  iexists _; isplitr
  rotate_left
  · iexact HO
  · ipureintro; intro p hp
    rcases Finset.mem_insert.mp hp with hp | hp
    · exact Or.inr (by rw [hp]; rfl)
    rcases Finset.mem_insert.mp hp with hp | hp
    · exact Or.inr (by rw [hp]; rfl)
    rcases Finset.mem_insert.mp hp with hp | hp
    · exact Or.inr (by rw [hp]; rfl)
    rcases Finset.mem_insert.mp hp with hp | hp
    · exact Or.inr (by rw [hp]; rfl)
    rcases Finset.mem_insert.mp hp with hp | hp
    · exact Or.inr (by rw [hp]; rfl)
    exact .inl hp

end Tile

end Cert.KernelIdeal.Run

end
-- ==== Proof.KIdealLaunch.lean ====
/-
  The SparseCore program's run, from the subcores' tasks. Before the call @main holds the pointer word (7), the ring
  re-laid as (plane, row block, source, lane) and the output array; the call deals every subcore a read share of the
  first two and its own two halves of the output, and gets the halves back holding plane 9 of the ring at their own
  row blocks; the halves are pairwise disjoint and cover the output, so the output array is plane 9 in the call's
  layout, and the two re-layings after the call turn it into the ring's plane 9 as (source, position).
-/
import proofs.«203186_g146028888480_cont_week2b_1412_22_alg».proof.Proof.KIdealTile
import proofs.«203186_g146028888480_cont_week2b_1412_22_alg».proof.Proof.HostBridge

noncomputable section

namespace Cert.KernelIdeal.Run

open Cert.KernelIdeal Cert.KernelIdeal.Gen Cert.KernelIdeal.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main's arrays on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev p' : DevRef τ sig := Proc.devRef .tc (main_v0 : Ref sig .tc)
abbrev t' : DevRef τ sig := Proc.devRef .tc (main_v1 : Ref sig .tc)
abbrev r' : DevRef τ sig := Proc.devRef .tc (main_v2 : Ref sig .tc)
abbrev o' : DevRef τ sig := Proc.devRef .tc (main_v3 : Ref sig .tc)
abbrev u' : DevRef τ sig := Proc.devRef .tc (main_v4 : Ref sig .tc)
abbrev z' : DevRef τ sig := Proc.devRef .tc (main_v5 : Ref sig .tc)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev tLoc (d : Dev nD) : Loc nD τ sig := (SparseCore.T d).loc main_v1
abbrev uLoc (d : Dev nD) : Loc nD τ sig := (SparseCore.T d).loc main_v4
abbrev zLoc (d : Dev nD) : Loc nD τ sig := (SparseCore.T d).loc main_v5

variable [FloatOps F]

abbrev op0 : HloOp τ sig (Elt F) := StableHlo.reshape main_arg2 main_v0 rfl shapeCasts_S_S1
abbrev op1 : HloOp τ sig (Elt F) := StableHlo.reshape main_arg1 main_v1 rfl shapeCasts_S4x33x262144_S4x33x2048x128
abbrev op2 : HloOp τ sig (Elt F) := StableHlo.unary main_v1 main_v2 ((transpose S33x2048x4x128 [1, 2, 0, 3] · transposes_S4x33x2048x128_S33x2048x4x128_1_2_0_3) : (⟨S4x33x2048x128, .f32⟩ : BufTy).Contents (Elt F) → (⟨S33x2048x4x128, .f32⟩ : BufTy).Contents (Elt F))
abbrev op4 : HloOp τ sig (Elt F) := StableHlo.unary main_v3 main_v4 ((transpose S4x2048x128 [1, 0, 2] · transposes_S2048x4x128_S4x2048x128_1_0_2) : (⟨S2048x4x128, .f32⟩ : BufTy).Contents (Elt F) → (⟨S4x2048x128, .f32⟩ : BufTy).Contents (Elt F))
abbrev op5 : HloOp τ sig (Elt F) := StableHlo.reshape main_v4 main_v5 rfl shapeCasts_S4x2048x128_S4x262144

/-- All nine arrays. -/
abbrev S9 : Finset (DevRef τ sig) := {a0', a1', a2', p', t', r', o', u', z'}
/-- The six that matter after the call. -/
abbrev S6 : Finset (DevRef τ sig) := {a0', a1', a2', o', u', z'}

omit [FloatOps F] in
theorem held_S9 (d : Dev nD) (W : Valuation τ sig (Elt F)) :
    (held (T d) S9 W : sProp 𝕄) = iprop((a0Loc d ↦{fullShare} W a0') ∗ (a1Loc d ↦{fullShare} W a1') ∗ (a2Loc d ↦{fullShare} W a2')
      ∗ (pLoc d ↦{fullShare} W p') ∗ (tLoc d ↦{fullShare} W t') ∗ (rLoc d ↦{fullShare} W r') ∗ (oLoc d ↦{fullShare} W o')
      ∗ (uLoc d ↦{fullShare} W u') ∗ zLoc d ↦{fullShare} W z') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S6 (d : Dev nD) (W : Valuation τ sig (Elt F)) :
    (held (T d) S6 W : sProp 𝕄) = iprop((a0Loc d ↦{fullShare} W a0') ∗ (a1Loc d ↦{fullShare} W a1') ∗ (a2Loc d ↦{fullShare} W a2')
      ∗ (oLoc d ↦{fullShare} W o') ∗ (uLoc d ↦{fullShare} W u') ∗ zLoc d ↦{fullShare} W z') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (pLoc d ↦{fullShare} W main_v0) ∗ (tLoc d ↦{fullShare} W main_v1) ∗ (rLoc d ↦{fullShare} W main_v2) ∗ (oLoc d ↦{fullShare} W main_v3)
      ∗ (uLoc d ↦{fullShare} W main_v4) ∗ zLoc d ↦{fullShare} W main_v5) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch contents; the contents when the call is made; after the call; at the end. -/
def V0 (d : Dev nD) : Valuation τ sig (Elt F) := fun b => m (d, b)
abbrev VA (d : Dev nD) : Valuation τ sig (Elt F) := (op2 (F := F)).result ((op1 (F := F)).result ((op0 (F := F)).result (V0 m d)))
/-- The ring as the call finds it. -/
abbrev ringOf (d : Dev nD) : Buf (Elt F) (rLoc d) := VA m d r'
abbrev VB (d : Dev nD) : Valuation τ sig (Elt F) := Function.update (VA m d) o' (Cert.Spec.planeOf (ringOf m d) : Buf (Elt F) (oLoc d))
abbrev VC (d : Dev nD) : Valuation τ sig (Elt F) := (op5 (F := F)).result ((op4 (F := F)).result (VB m d))

theorem unscoped_held (d : Dev nD) : (unscopedBufs d (fun b => m ((SparseCore.T d).loc b)) : sProp 𝕄) = held (T d) S9 (V0 m d) := by
  rw [unscopedBufs_eq, held_S9]; rfl

theorem VA_eq (d : Dev nD) : VA m d = after [op0 (F := F), op1, op2] (V0 m d) := rfl
theorem VC_eq (d : Dev nD) : VC m d = after [op4 (F := F), op5] (VB m d) := rfl

theorem VA_a0 (d : Dev nD) : VA m d a0' = m (a0Loc d) := by
  rw [VA_eq]; show after _ _ (Proc.devRef .tc main_arg0) = _; after_results; rfl
theorem VA_a1 (d : Dev nD) : VA m d a1' = m (a1Loc d) := by
  rw [VA_eq]; show after _ _ (Proc.devRef .tc main_arg1) = _; after_results; rfl
theorem VA_a2 (d : Dev nD) : VA m d a2' = m (a2Loc d) := by
  rw [VA_eq]; show after _ _ (Proc.devRef .tc main_arg2) = _; after_results; rfl
theorem VA_o (d : Dev nD) : VA m d o' = m (oLoc d) := by
  rw [VA_eq]; show after _ _ (Proc.devRef .tc main_v3) = _; after_results; rfl
theorem VA_p (d : Dev nD) (hp : m (a2Loc d) = fun _ => (7#32 : BitVec 32)) : VA m d p' = (fun _ => (7#32 : BitVec 32) : Buf (Elt F) (pLoc d)) := by
  rw [VA_eq]; show after _ _ (Proc.devRef .tc main_v0) = _; after_results
  show (fun i => shapeCast S1 (m (a2Loc d)) shapeCasts_S_S1 i) = _
  rw [hp]; rfl
theorem ringOf_eq (d : Dev nD) :
    ringOf m d = transpose S33x2048x4x128 [1, 2, 0, 3] (shapeCast S4x33x2048x128 (m (a1Loc d)) shapeCasts_S4x33x262144_S4x33x2048x128) transposes_S4x33x2048x128_S33x2048x4x128_1_2_0_3 := by
  show VA m d r' = _; rw [VA_eq]; show after _ _ (Proc.devRef .tc main_v2) = _; after_results; rfl

theorem VB_a0 (d : Dev nD) : VB m d a0' = m (a0Loc d) := (Function.update_of_ne (show a0' ≠ o' by decide) _ _).trans (VA_a0 m d)
theorem VB_a1 (d : Dev nD) : VB m d a1' = m (a1Loc d) := (Function.update_of_ne (show a1' ≠ o' by decide) _ _).trans (VA_a1 m d)
theorem VB_a2 (d : Dev nD) : VB m d a2' = m (a2Loc d) := (Function.update_of_ne (show a2' ≠ o' by decide) _ _).trans (VA_a2 m d)
theorem VB_o (d : Dev nD) : VB m d o' = (Cert.Spec.planeOf (ringOf m d) : Buf (Elt F) (oLoc d)) := Function.update_self _ _ _
theorem VB_u (d : Dev nD) : VB m d u' = VA m d u' := Function.update_of_ne (show u' ≠ o' by decide) _ _
theorem VB_z (d : Dev nD) : VB m d z' = VA m d z' := Function.update_of_ne (show z' ≠ o' by decide) _ _

theorem VC_a0 (d : Dev nD) : VC m d a0' = m (a0Loc d) := by
  rw [VC_eq]; show after _ _ (Proc.devRef .tc main_arg0) = _; after_results; exact VB_a0 m d
theorem VC_a1 (d : Dev nD) : VC m d a1' = m (a1Loc d) := by
  rw [VC_eq]; show after _ _ (Proc.devRef .tc main_arg1) = _; after_results; exact VB_a1 m d
theorem VC_a2 (d : Dev nD) : VC m d a2' = m (a2Loc d) := by
  rw [VC_eq]; show after _ _ (Proc.devRef .tc main_arg2) = _; after_results; exact VB_a2 m d
/-- The result: the ring's plane 9. -/
theorem VC_z (d : Dev nD) : VC m d z' = (Cert.Spec.delayed (m (a1Loc d)) : Buf (Elt F) (zLoc d)) := by
  rw [VC_eq]; show after _ _ (Proc.devRef .tc main_v5) = _; after_results
  show (fun i => shapeCast S4x262144 (transpose S4x2048x128 [1, 0, 2] (VB m d o') transposes_S2048x4x128_S4x2048x128_1_0_2) shapeCasts_S4x2048x128_S4x262144 i) = _
  rw [VB_o, ringOf_eq]
  exact Cert.Spec.host_bridge (m (a1Loc d)) _ _ _ _

/-! ## What the handshakes carry -/

theorem bound0 : grid0.bound 0 = 2 := rfl
theorem bound1 : grid0.bound 1 = 16 := rfl
theorem hC : (K (F := F)).nCore 0 = grid0.bound 0 := rfl
theorem hS : (K (F := F)).nSub 0 = grid0.bound 1 := rfl

abbrev tokC (c : Fin (grid0.bound 0)) : PosShare TreeShare := Transfers.shareTok fullShare (grid0.bound 0) c
abbrev tokT (c : Fin (grid0.bound 0)) (i : Fin (grid0.bound 1)) : PosShare TreeShare := Transfers.shareTok (tokC c) (grid0.bound 1) i

/-- One subcore's operands: a read share of the pointer word and of the ring, its two output halves. -/
def goT (d : Dev nD) (c : Fin (grid0.bound 0)) (i : Fin (grid0.bound 1)) : sProp 𝕄 :=
  iprop((pLoc d ↦{tokT c i} ((fun _ => (7#32 : BitVec 32)) : Buf (Elt F) (pLoc d)))
    ∗ (rLoc d ↦{tokT c i} ringOf m d)
    ∗ (oLoc d ↦[rowsA (coordsV c i)]{fullShare} m (oLoc d))
    ∗ (oLoc d ↦[rowsB (coordsV c i)]{fullShare} m (oLoc d)))
/-- and its results. -/
def tdT (d : Dev nD) (c : Fin (grid0.bound 0)) (i : Fin (grid0.bound 1)) : sProp 𝕄 := tdRes d (coordsV c i) (ringOf m d)

def P : (K (F := F)).Pay (nD := nD) (Val := Elt F) (Name := ℕ) (U := UU) where
  st := fun q d c => match q with | 0 => bigSep Finset.univ fun i : Fin (grid0.bound 1) => goT m d (Fin.cast hC c) i
  dn := fun q d c => match q with | 0 => bigSep Finset.univ fun i : Fin (grid0.bound 1) => tdT m d (Fin.cast hC c) i
  go := fun q d c i => match q with | 0 => goT m d (Fin.cast hC c) (Fin.cast hS i)
  td := fun q d c i => match q with | 0 => tdT m d (Fin.cast hC c) (Fin.cast hS i)
  x := fun _ _ => iprop(emp)

instance goT_storable (d : Dev nD) (c : Fin (grid0.bound 0)) (i : Fin (grid0.bound 1)) : BI.Storable (upEmb : UEmb _ 𝕄) (goT m d c i) := by
  unfold goT; infer_instance
instance tdT_storable (d : Dev nD) (c : Fin (grid0.bound 0)) (i : Fin (grid0.bound 1)) : BI.Storable (upEmb : UEmb _ 𝕄) (tdT m d c i) := by
  unfold tdT tdRes; infer_instance

instance P_storable : (P (F := F) m).IsStorable where
  st q d c := match q with | 0 => (inferInstance : BI.Storable (upEmb : UEmb _ 𝕄) (bigSep Finset.univ fun i : Fin (grid0.bound 1) => goT m d (Fin.cast hC c) i))
  dn q d c := match q with | 0 => (inferInstance : BI.Storable (upEmb : UEmb _ 𝕄) (bigSep Finset.univ fun i : Fin (grid0.bound 1) => tdT m d (Fin.cast hC c) i))
  go q d c i := match q with | 0 => (inferInstance : BI.Storable (upEmb : UEmb _ 𝕄) (goT m d (Fin.cast hC c) (Fin.cast hS i)))
  td q d c i := match q with | 0 => (inferInstance : BI.Storable (upEmb : UEmb _ 𝕄) (tdT m d (Fin.cast hC c) (Fin.cast hS i)))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_v2_scv) (Memref.isWhole_whole _) (Memref.whole main_v3_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem goRes_of_goT (d : Dev nD) (c : Fin (grid0.bound 0)) (i : Fin (grid0.bound 1)) :
    goT m d c i = goRes d (coordsV c i) (tokT c i) (ringOf m d) (m (oLoc d)) := rfl

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (tokT (Fin.cast hC c) (Fin.cast hS i)) (ringOf m d) (m (oLoc d)) O W hO).trans (wp_mono frame _ _ fun _ => obl_post)

theorem vecSplit : (K (F := F)).VecSplit' (P m) 0 := by
  intro d c
  show (bigSep Finset.univ fun i : Fin (grid0.bound 1) => goT m d (Fin.cast hC c) i) ⊢ |={Set.univ}=> iprop(
      (bigSep Finset.univ fun i : Fin ((K (F := F)).nSub 0) => goT m d (Fin.cast hC c) (Fin.cast hS i))
      ∗ ((bigSep Finset.univ fun i : Fin ((K (F := F)).nSub 0) => tdT m d (Fin.cast hC c) (Fin.cast hS i))
          -∗ bigSep Finset.univ fun i : Fin (grid0.bound 1) => tdT m d (Fin.cast hC c) i))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Dealing the arrays to the subcores and gathering the output -/

omit [FloatOps F] in
theorem pts_congr {ℓ : Loc nD τ sig} {f g : Buf (Elt F) ℓ} (h : f = g) : (ℓ ↦{fullShare} f : sProp 𝕄) ⊢ ℓ ↦{fullShare} g :=
  Entails.of_eq (by rw [h])

omit [FloatOps F] in
/-- Two families side by side, over the grid. -/
theorem bigSep2_sep (X Y : Fin (grid0.bound 0) → Fin (grid0.bound 1) → sProp 𝕄) :
    (bigSep Finset.univ fun c => bigSep Finset.univ fun i => iprop(X c i ∗ Y c i))
      = iprop((bigSep Finset.univ fun c => bigSep Finset.univ fun i => X c i) ∗ bigSep Finset.univ fun c => bigSep Finset.univ fun i => Y c i) := by
  rw [← bigSep_sep']
  exact bigSep_congr fun c _ => bigSep_sep' _ _ _

omit [FloatOps F] in
/-- An array every subcore reads: a read share for each, what is left over dropped. -/
theorem deal_toks (ℓ : Loc nD τ sig) (f : Buf (Elt F) ℓ) :
    (ℓ ↦{fullShare} f : sProp 𝕄)
      ⊢ bigSep Finset.univ fun c : Fin (grid0.bound 0) => bigSep Finset.univ fun i : Fin (grid0.bound 1) => ℓ ↦{tokT c i} f := by
  refine (Transfers.pointsTo_toks_split fullShare (grid0.bound 0)).trans ?_
  refine sep_elim_right.trans ?_
  refine bigSep_mono fun c _ => ?_
  exact (Transfers.pointsTo_toks_split (tokC c) (grid0.bound 1)).trans sep_elim_right

omit [FloatOps F] in
/-- The output array is its 64 halves: the subcores' row blocks are pairwise disjoint and cover it. -/
theorem deal_out (d : Dev nD) (f : Buf (Elt F) (oLoc d)) :
    (oLoc d ↦{fullShare} f : sProp 𝕄)
      = bigSep Finset.univ fun c : Fin (grid0.bound 0) => bigSep Finset.univ fun i : Fin (grid0.bound 1) =>
          iprop((oLoc d ↦[rowsA (coordsV c i)]{fullShare} f) ∗ oLoc d ↦[rowsB (coordsV c i)]{fullShare} f) := by
  have h1 : (oLoc d ↦{fullShare} f : sProp 𝕄)
      = bigSep Finset.univ fun x : Fin (grid0.bound 0) × Fin (grid0.bound 1) => oLoc d ↦[rowsT x]{fullShare} f := by
    rw [← pointsTo_biUnion Finset.univ (ℓ := oLoc d) rowsT rowsT_disjoint, rowsT_cover]; try rfl
  rw [h1, bigSep_univ_prod]
  exact bigSep_congr fun c _ => bigSep_congr fun i _ =>
    BI.equiv_iff.mp ⟨(pointsTo_union (rowsAB_disjoint (coordsV c i))).1, (pointsTo_union (rowsAB_disjoint (coordsV c i))).2⟩

theorem st0_eq (d : Dev nD) :
    (bigSep Finset.univ fun c : Fin ((K (F := F)).nCore 0) => (P m).st 0 d c)
      = bigSep Finset.univ fun c : Fin (grid0.bound 0) => bigSep Finset.univ fun i : Fin (grid0.bound 1) => goT m d c i := rfl
theorem dn0_eq (d : Dev nD) :
    (bigSep Finset.univ fun c : Fin ((K (F := F)).nCore 0) => (P m).dn 0 d c)
      = bigSep Finset.univ fun c : Fin (grid0.bound 0) => bigSep Finset.univ fun i : Fin (grid0.bound 1) => tdT m d c i := rfl

theorem goT_eq (d : Dev nD) :
    (bigSep Finset.univ fun c : Fin (grid0.bound 0) => bigSep Finset.univ fun i : Fin (grid0.bound 1) => goT m d c i)
      = iprop((bigSep Finset.univ fun c : Fin (grid0.bound 0) => bigSep Finset.univ fun i : Fin (grid0.bound 1) =>
            (pLoc d ↦{tokT c i} ((fun _ => (7#32 : BitVec 32)) : Buf (Elt F) (pLoc d)) : sProp 𝕄))
        ∗ (bigSep Finset.univ fun c : Fin (grid0.bound 0) => bigSep Finset.univ fun i : Fin (grid0.bound 1) => (rLoc d ↦{tokT c i} ringOf m d : sProp 𝕄))
        ∗ (bigSep Finset.univ fun c : Fin (grid0.bound 0) => bigSep Finset.univ fun i : Fin (grid0.bound 1) =>
            iprop((oLoc d ↦[rowsA (coordsV c i)]{fullShare} m (oLoc d)) ∗ oLoc d ↦[rowsB (coordsV c i)]{fullShare} m (oLoc d)))) := by
  unfold goT
  rw [bigSep2_sep, bigSep2_sep]

theorem tdT_eq (d : Dev nD) :
    (bigSep Finset.univ fun c : Fin (grid0.bound 0) => bigSep Finset.univ fun i : Fin (grid0.bound 1) => tdT m d c i)
      = bigSep Finset.univ fun c : Fin (grid0.bound 0) => bigSep Finset.univ fun i : Fin (grid0.bound 1) =>
          iprop((oLoc d ↦[rowsA (coordsV c i)]{fullShare} (Cert.Spec.planeOf (ringOf m d) : Buf (Elt F) (oLoc d)))
            ∗ oLoc d ↦[rowsB (coordsV c i)]{fullShare} (Cert.Spec.planeOf (ringOf m d) : Buf (Elt F) (oLoc d))) := by
  unfold tdT tdRes; rfl

theorem h0 : (op0 (F := F)).bufs ⊆ S9 := show ({a2', p'} : Finset (DevRef τ sig)) ⊆ S9 by decide
theorem h1 : (op1 (F := F)).bufs ⊆ S9 := show ({a1', t'} : Finset (DevRef τ sig)) ⊆ S9 by decide
theorem h2 : (op2 (F := F)).bufs ⊆ S9 := show ({t', r'} : Finset (DevRef τ sig)) ⊆ S9 by decide
theorem h4 : (op4 (F := F)).bufs ⊆ S6 := show ({o', u'} : Finset (DevRef τ sig)) ⊆ S6 by decide
theorem h5 : (op5 (F := F)).bufs ⊆ S6 := show ({u', z'} : Finset (DevRef τ sig)) ⊆ S6 by decide

/-- What @main leaves the claim: the three arguments at their launch contents, the result at the ring's plane 9. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (zLoc d ↦{fullShare} (Cert.Spec.delayed (m (a1Loc d)) : Buf (Elt F) (zLoc d))))

/-- @main on device `d`'s TensorCore. -/
theorem hmain (hptr : ∀ d : Dev nD, m (a2Loc d) = fun _ => (7#32 : BitVec 32)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the pointer as a one-word array, the ring re-laid
  iapply (wp_hlo_within 𝒱 (SparseCore.T d) none Set.univ (op := op0) (S := S9) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S9) h2 (V := (op1 (F := F)).result ((op0 (F := F)).result (V0 m d)))) $$ [Hb Hheld]
  · isplitl [Hb] <;> iassumption
  iintro ⟨Hb, Hheld⟩
  rw [wp_ret]; imodintro
  ihave Hh := (Entails.of_eq (held_S9 (F := F) d (VA m d))) $$ Hheld
  icases Hh with ⟨Ha0, Ha1, Ha2, Hp, -, Hr, Ho, Hu, Hz⟩
  ihave Ha0' := (show (a0Loc d ↦{fullShare} VA m d a0' : sProp 𝕄) ⊢ a0Loc d ↦{fullShare} m (a0Loc d) from pts_congr (VA_a0 m d)) $$ Ha0
  ihave Ha1' := (show (a1Loc d ↦{fullShare} VA m d a1' : sProp 𝕄) ⊢ a1Loc d ↦{fullShare} m (a1Loc d) from pts_congr (VA_a1 m d)) $$ Ha1
  ihave Ha2' := (show (a2Loc d ↦{fullShare} VA m d a2' : sProp 𝕄) ⊢ a2Loc d ↦{fullShare} m (a2Loc d) from pts_congr (VA_a2 m d)) $$ Ha2
  ihave Hp' := (show (pLoc d ↦{fullShare} VA m d p' : sProp 𝕄) ⊢ pLoc d ↦{fullShare} ((fun _ => (7#32 : BitVec 32)) : Buf (Elt F) (pLoc d)) from pts_congr (VA_p m d (hptr d))) $$ Hp
  ihave Ho' := (show (oLoc d ↦{fullShare} VA m d o' : sProp 𝕄) ⊢ oLoc d ↦{fullShare} m (oLoc d) from pts_congr (VA_o m d)) $$ Ho
  ihave Hp2 := (deal_toks (F := F) (pLoc d) _) $$ Hp'
  ihave Hr2 := (deal_toks (F := F) (rLoc d) (ringOf m d)) $$ Hr
  ihave Ho2 := (Entails.of_eq (deal_out (F := F) d (m (oLoc d)))) $$ Ho'
  -- the call
  iapply ((K (F := F)).wp_run (D (F := F)) 𝒱 (EH := EH) (P := P m) κ d 0) $$ [Hst Hp2 Hr2 Ho2 Hb Ha0' Ha1' Ha2' Hu Hz]
  isplitr; · iexact Hctx
  isplitl [Hst]; · iexact Hst
  isplitl [Hp2 Hr2 Ho2]
  · rw [st0_eq, goT_eq]
    isplitl [Hp2]; · iexact Hp2
    isplitl [Hr2]; · iexact Hr2
    iexact Ho2
  iintro ⟨Hst, Hdn⟩
  ihave Hdn0 := (Entails.of_eq (dn0_eq m d)) $$ Hdn
  ihave Hdn' := (Entails.of_eq (tdT_eq m d)) $$ Hdn0
  ihave Ho := (Entails.of_eq (deal_out (F := F) d (Cert.Spec.planeOf (ringOf m d) : Buf (Elt F) (oLoc d))).symm) $$ Hdn'
  -- the output re-laid
  iapply (wp_hlo_within 𝒱 (SparseCore.T d) none Set.univ (op := op4) (S := S6) h4 (V := VB m d)) $$ [Hb Ha0' Ha1' Ha2' Ho Hu Hz]
  · isplitl [Hb]; · iexact Hb
    rw [held_S6, VB_a0, VB_a1, VB_a2, VB_o, VB_u, VB_z]
    isplitl [Ha0']; · iexact Ha0'
    isplitl [Ha1']; · iexact Ha1'
    isplitl [Ha2']; · iexact Ha2'
    isplitl [Ho]; · iexact Ho
    isplitl [Hu]; · iexact Hu
    iexact Hz
  iintro ⟨Hb, Hheld⟩
  rw [wp_ret]; imodintro
  iapply (wp_hlo_within 𝒱 (SparseCore.T d) none Set.univ (op := op5) (S := S6) h5 (V := (op4 (F := F)).result (VB m d))) $$ [Hb Hheld]
  · isplitl [Hb] <;> iassumption
  iintro ⟨Hb, Hheld⟩
  ihave Hh := (Entails.of_eq (held_S6 (F := F) d (VC m d))) $$ Hheld
  icases Hh with ⟨Ha0, Ha1, Ha2, -, -, Hz⟩
  rw [wp_ret]; imodintro; imodintro
  isplitl [Hst]; · iexact Hst
  isplitl [Ha0]; · iapply (show (a0Loc d ↦{fullShare} VC m d a0' : sProp 𝕄) ⊢ a0Loc d ↦{fullShare} m (a0Loc d) from pts_congr (VC_a0 m d)); iexact Ha0
  isplitl [Ha1]; · iapply (show (a1Loc d ↦{fullShare} VC m d a1' : sProp 𝕄) ⊢ a1Loc d ↦{fullShare} m (a1Loc d) from pts_congr (VC_a1 m d)); iexact Ha1
  isplitl [Ha2]; · iapply (show (a2Loc d ↦{fullShare} VC m d a2' : sProp 𝕄) ⊢ a2Loc d ↦{fullShare} m (a2Loc d) from pts_congr (VC_a2 m d)); iexact Ha2
  iapply (show (zLoc d ↦{fullShare} VC m d z' : sProp 𝕄) ⊢ zLoc d ↦{fullShare} (Cert.Spec.delayed (m (a1Loc d)) : Buf (Elt F) (zLoc d)) from pts_congr (VC_z m d)); iexact Hz

def fq (d : Dev nD) (s' : Phys nD τ sig (Elt F)) : Prop :=
  s'.mem.mem (zLoc d) = (Cert.Spec.delayed (m (a1Loc d)) : Buf (Elt F) (zLoc d)) ∧ s'.mem.mem (a0Loc d) = m (a0Loc d)
    ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hz⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := zLoc d) (I := Finset.univ) (q := fullShare) (f := (Cert.Spec.delayed (m (a1Loc d)) : Buf (Elt F) (zLoc d)))) $$ [HSI Hz]
  · isplitl [HSI] <;> iassumption
  icases H with %hz
  ipureintro
  exact ⟨funext fun i => hz i (Finset.mem_univ i), funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (zLoc c) = (Cert.Spec.delayed (m (a1Loc c)) : Buf (Elt F) (zLoc c)) ∧ r.2.mem (a0Loc c) = m (a0Loc c)
    ∧ r.2.mem (a1Loc c) = m (a1Loc c) ∧ r.2.mem (a2Loc c) = m (a2Loc c)

/-- Every weakly fair execution of the program's threads ends, nothing faulting, with the result array at the ring's
    plane 9 and the arguments as they were. -/
theorem run_main [∀ e, Nonempty (Elt F e)] (hptr : ∀ d : Dev nD, m (a2Loc d) = fun _ => (7#32 : BitVec 32)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ hptr) (fq m) (hfin m) (QC m) (fun _ h => h)

end Cert.KernelIdeal.Run

end
-- ==== Proof.RefRun.lean ====
/-
  The reference's @main as a straight line of host operations, and its run.

  @main makes three calls (remainder, remainder_0 twice), each of which calls _where once. A call executes the
  callee's body on the operands' buffers, so with the three bodies written out at their call sites @main is a
  list of 85 operations: the constant 33, the sixteen operations of remainder (ptr, 33), the sign fix-up and its
  broadcast, the scatter that overwrites one plane of the ring, ptr + 1, the sixteen of remainder_0 (ptr + 1, 33),
  the subtraction of 32, the sixteen of remainder_0 again, the three start indices of the slice (each a select
  over constants, the middle one the sign fix-up of the last remainder), the dynamic slice, and the reshape.

  The run theorem: every weakly fair execution of @main from zero counters terminates, and at the end every
  TensorCore buffer holds the fold of the 85 operations over the launch contents.
-/
import proofs.«203186_g146028888480_cont_week2b_1412_22_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 85 operations, in order, the callees' bodies at their call sites. -/
abbrev ops : List (HloOp τ sig (Elt F)) :=
  [ nullary main_c (constantI S_ 32 33#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.binary (.of main_arg2) main_call0.call0.v0 main_call0.v3 Host.remsi,
    TRef.nullary main_call0.c_1 (constantI S_ 32 0#32),
    TRef.binary main_call0.v3 main_call0.c_1 main_call0.v4 (cmpi .ne),
    TRef.nullary main_call0.c_2 (constantI S_ 32 0#32),
    TRef.binary main_call0.v3 main_call0.c_2 main_call0.v5 (cmpi .slt),
    TRef.nullary main_call0.c_3 (constantI S_ 32 0#32),
    TRef.binary main_call0.call0.v0 main_call0.c_3 main_call0.v6 (cmpi .slt),
    TRef.binary main_call0.v5 main_call0.v6 main_call0.v7 (cmpi .ne),
    TRef.binary main_call0.v7 main_call0.v4 main_call0.v8 andi,
    TRef.binary main_call0.v3 main_call0.call0.v0 main_call0.v9 addi,
    TRef.ternary main_call0.v8 main_call0.v9 main_call0.v3 main_call0.v10 select,
    nullary main_c_0 (constantI S_ 32 0#32),
    binary main_v0 main_c_0 main_v1 (cmpi .slt : (⟨S_, .i32⟩ : BufTy).Contents (Elt F) → (⟨S_, .i32⟩ : BufTy).Contents (Elt F) → (⟨S_, .i1⟩ : BufTy).Contents (Elt F)),
    nullary main_c_1 (constantI S_ 32 33#32),
    binary main_v0 main_c_1 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v3 main_v4 (broadcastInDim S1 ![] bcast_S_S1 : (⟨S_, .i32⟩ : BufTy).Contents (Elt F) → (⟨S1, .i32⟩ : BufTy).Contents (Elt F)),
    ternary main_arg1 main_v4 main_arg0 main_v5 ((fun x i u => Host.scatter scatter_S4x33x262144_S1_S4x262144_01_1_1_0 (fun _ b => b) x i u) : (⟨S4x33x262144, .f32⟩ : BufTy).Contents (Elt F) → (⟨S1, .i32⟩ : BufTy).Contents (Elt F) → (⟨S4x262144, .f32⟩ : BufTy).Contents (Elt F) → (⟨S4x33x262144, .f32⟩ : BufTy).Contents (Elt F)),
    nullary main_c_2 (constantI S_ 32 1#32),
    binary main_arg2 main_c_2 main_v6 (addi : (⟨S_, .i32⟩ : BufTy).Contents (Elt F) → (⟨S_, .i32⟩ : BufTy).Contents (Elt F) → (⟨S_, .i32⟩ : BufTy).Contents (Elt F)),
    nullary main_c_3 (constantI S_ 32 33#32),
    TRef.unary (.of main_c_3) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.binary (.of main_v6) main_call1.call0.v0 main_call1.v3 Host.remsi,
    TRef.nullary main_call1.c_1 (constantI S_ 32 0#32),
    TRef.binary main_call1.v3 main_call1.c_1 main_call1.v4 (cmpi .ne),
    TRef.nullary main_call1.c_2 (constantI S_ 32 0#32),
    TRef.binary main_call1.v3 main_call1.c_2 main_call1.v5 (cmpi .slt),
    TRef.nullary main_call1.c_3 (constantI S_ 32 0#32),
    TRef.binary main_call1.call0.v0 main_call1.c_3 main_call1.v6 (cmpi .slt),
    TRef.binary main_call1.v5 main_call1.v6 main_call1.v7 (cmpi .ne),
    TRef.binary main_call1.v7 main_call1.v4 main_call1.v8 andi,
    TRef.binary main_call1.v3 main_call1.call0.v0 main_call1.v9 addi,
    TRef.ternary main_call1.v8 main_call1.v9 main_call1.v3 main_call1.v10 select,
    nullary main_c_4 (constantI S_ 32 32#32),
    binary main_v7 main_c_4 main_v8 (subi : (⟨S_, .i32⟩ : BufTy).Contents (Elt F) → (⟨S_, .i32⟩ : BufTy).Contents (Elt F) → (⟨S_, .i32⟩ : BufTy).Contents (Elt F)),
    nullary main_c_5 (constantI S_ 32 33#32),
    TRef.unary (.of main_c_5) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.binary (.of main_v8) main_call2.call0.v0 main_call2.v3 Host.remsi,
    TRef.nullary main_call2.c_1 (constantI S_ 32 0#32),
    TRef.binary main_call2.v3 main_call2.c_1 main_call2.v4 (cmpi .ne),
    TRef.nullary main_call2.c_2 (constantI S_ 32 0#32),
    TRef.binary main_call2.v3 main_call2.c_2 main_call2.v5 (cmpi .slt),
    TRef.nullary main_call2.c_3 (constantI S_ 32 0#32),
    TRef.binary main_call2.call0.v0 main_call2.c_3 main_call2.v6 (cmpi .slt),
    TRef.binary main_call2.v5 main_call2.v6 main_call2.v7 (cmpi .ne),
    TRef.binary main_call2.v7 main_call2.v4 main_call2.v8 andi,
    TRef.binary main_call2.v3 main_call2.call0.v0 main_call2.v9 addi,
    TRef.ternary main_call2.v8 main_call2.v9 main_call2.v3 main_call2.v10 select,
    nullary main_c_6 (constantI S_ 32 0#32),
    nullary main_c_7 (constantI S_ 32 0#32),
    binary main_c_6 main_c_7 main_v10 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 4#32),
    binary main_c_8 main_c_9 main_v11 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v10 main_v11 main_c_10 main_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_11 (constantI S_ 32 0#32),
    binary main_v9 main_c_11 main_v13 (cmpi .slt : (⟨S_, .i32⟩ : BufTy).Contents (Elt F) → (⟨S_, .i32⟩ : BufTy).Contents (Elt F) → (⟨S_, .i1⟩ : BufTy).Contents (Elt F)),
    nullary main_c_12 (constantI S_ 32 33#32),
    binary main_v9 main_c_12 main_v14 (addi : (⟨S_, .i32⟩ : BufTy).Contents (Elt F) → (⟨S_, .i32⟩ : BufTy).Contents (Elt F) → (⟨S_, .i32⟩ : BufTy).Contents (Elt F)),
    ternary main_v13 main_v14 main_v9 main_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_13 (constantI S_ 32 0#32),
    nullary main_c_14 (constantI S_ 32 0#32),
    binary main_c_13 main_c_14 main_v16 (cmpi .slt : (⟨S_, .i32⟩ : BufTy).Contents (Elt F) → (⟨S_, .i32⟩ : BufTy).Contents (Elt F) → (⟨S_, .i1⟩ : BufTy).Contents (Elt F)),
    nullary main_c_15 (constantI S_ 32 0#32),
    nullary main_c_16 (constantI S_ 32 262144#32),
    binary main_c_15 main_c_16 main_v17 (addi : (⟨S_, .i32⟩ : BufTy).Contents (Elt F) → (⟨S_, .i32⟩ : BufTy).Contents (Elt F) → (⟨S_, .i32⟩ : BufTy).Contents (Elt F)),
    nullary main_c_17 (constantI S_ 32 0#32),
    ternary main_v16 main_v17 main_c_17 main_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v5 ![main_v12, main_v15, main_v18] ⟨S_, .i32⟩ main_v19 ((fun x i => Host.dynamicSlice S4x1x262144 x (fun k => (i k (Shape.Idx.first h_S_)).toInt) sliceFits_S4x33x262144_S4x1x262144) : (⟨S4x33x262144, .f32⟩ : BufTy).Contents (Elt F) → (Fin 3 → (⟨S_, .i32⟩ : BufTy).Contents (Elt F)) → (⟨S4x1x262144, .f32⟩ : BufTy).Contents (Elt F)),
    reshape main_v19 main_v20 rfl shapeCasts_S4x1x262144_S4x262144 ]

/-- The first 83: everything up to the three start indices of the slice. -/
abbrev opsA : List (HloOp τ sig (Elt F)) :=
  [ nullary main_c (constantI S_ 32 33#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.binary (.of main_arg2) main_call0.call0.v0 main_call0.v3 Host.remsi,
    TRef.nullary main_call0.c_1 (constantI S_ 32 0#32),
    TRef.binary main_call0.v3 main_call0.c_1 main_call0.v4 (cmpi .ne),
    TRef.nullary main_call0.c_2 (constantI S_ 32 0#32),
    TRef.binary main_call0.v3 main_call0.c_2 main_call0.v5 (cmpi .slt),
    TRef.nullary main_call0.c_3 (constantI S_ 32 0#32),
    TRef.binary main_call0.call0.v0 main_call0.c_3 main_call0.v6 (cmpi .slt),
    TRef.binary main_call0.v5 main_call0.v6 main_call0.v7 (cmpi .ne),
    TRef.binary main_call0.v7 main_call0.v4 main_call0.v8 andi,
    TRef.binary main_call0.v3 main_call0.call0.v0 main_call0.v9 addi,
    TRef.ternary main_call0.v8 main_call0.v9 main_call0.v3 main_call0.v10 select,
    nullary main_c_0 (constantI S_ 32 0#32),
    binary main_v0 main_c_0 main_v1 (cmpi .slt : (⟨S_, .i32⟩ : BufTy).Contents (Elt F) → (⟨S_, .i32⟩ : BufTy).Contents (Elt F) → (⟨S_, .i1⟩ : BufTy).Contents (Elt F)),
    nullary main_c_1 (constantI S_ 32 33#32),
    binary main_v0 main_c_1 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v3 main_v4 (broadcastInDim S1 ![] bcast_S_S1 : (⟨S_, .i32⟩ : BufTy).Contents (Elt F) → (⟨S1, .i32⟩ : BufTy).Contents (Elt F)),
    ternary main_arg1 main_v4 main_arg0 main_v5 ((fun x i u => Host.scatter scatter_S4x33x262144_S1_S4x262144_01_1_1_0 (fun _ b => b) x i u) : (⟨S4x33x262144, .f32⟩ : BufTy).Contents (Elt F) → (⟨S1, .i32⟩ : BufTy).Contents (Elt F) → (⟨S4x262144, .f32⟩ : BufTy).Contents (Elt F) → (⟨S4x33x262144, .f32⟩ : BufTy).Contents (Elt F)),
    nullary main_c_2 (constantI S_ 32 1#32),
    binary main_arg2 main_c_2 main_v6 (addi : (⟨S_, .i32⟩ : BufTy).Contents (Elt F) → (⟨S_, .i32⟩ : BufTy).Contents (Elt F) → (⟨S_, .i32⟩ : BufTy).Contents (Elt F)),
    nullary main_c_3 (constantI S_ 32 33#32),
    TRef.unary (.of main_c_3) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.binary (.of main_v6) main_call1.call0.v0 main_call1.v3 Host.remsi,
    TRef.nullary main_call1.c_1 (constantI S_ 32 0#32),
    TRef.binary main_call1.v3 main_call1.c_1 main_call1.v4 (cmpi .ne),
    TRef.nullary main_call1.c_2 (constantI S_ 32 0#32),
    TRef.binary main_call1.v3 main_call1.c_2 main_call1.v5 (cmpi .slt),
    TRef.nullary main_call1.c_3 (constantI S_ 32 0#32),
    TRef.binary main_call1.call0.v0 main_call1.c_3 main_call1.v6 (cmpi .slt),
    TRef.binary main_call1.v5 main_call1.v6 main_call1.v7 (cmpi .ne),
    TRef.binary main_call1.v7 main_call1.v4 main_call1.v8 andi,
    TRef.binary main_call1.v3 main_call1.call0.v0 main_call1.v9 addi,
    TRef.ternary main_call1.v8 main_call1.v9 main_call1.v3 main_call1.v10 select,
    nullary main_c_4 (constantI S_ 32 32#32),
    binary main_v7 main_c_4 main_v8 (subi : (⟨S_, .i32⟩ : BufTy).Contents (Elt F) → (⟨S_, .i32⟩ : BufTy).Contents (Elt F) → (⟨S_, .i32⟩ : BufTy).Contents (Elt F)),
    nullary main_c_5 (constantI S_ 32 33#32),
    TRef.unary (.of main_c_5) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.binary (.of main_v8) main_call2.call0.v0 main_call2.v3 Host.remsi,
    TRef.nullary main_call2.c_1 (constantI S_ 32 0#32),
    TRef.binary main_call2.v3 main_call2.c_1 main_call2.v4 (cmpi .ne),
    TRef.nullary main_call2.c_2 (constantI S_ 32 0#32),
    TRef.binary main_call2.v3 main_call2.c_2 main_call2.v5 (cmpi .slt),
    TRef.nullary main_call2.c_3 (constantI S_ 32 0#32),
    TRef.binary main_call2.call0.v0 main_call2.c_3 main_call2.v6 (cmpi .slt),
    TRef.binary main_call2.v5 main_call2.v6 main_call2.v7 (cmpi .ne),
    TRef.binary main_call2.v7 main_call2.v4 main_call2.v8 andi,
    TRef.binary main_call2.v3 main_call2.call0.v0 main_call2.v9 addi,
    TRef.ternary main_call2.v8 main_call2.v9 main_call2.v3 main_call2.v10 select,
    nullary main_c_6 (constantI S_ 32 0#32),
    nullary main_c_7 (constantI S_ 32 0#32),
    binary main_c_6 main_c_7 main_v10 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 4#32),
    binary main_c_8 main_c_9 main_v11 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v10 main_v11 main_c_10 main_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_11 (constantI S_ 32 0#32),
    binary main_v9 main_c_11 main_v13 (cmpi .slt : (⟨S_, .i32⟩ : BufTy).Contents (Elt F) → (⟨S_, .i32⟩ : BufTy).Contents (Elt F) → (⟨S_, .i1⟩ : BufTy).Contents (Elt F)),
    nullary main_c_12 (constantI S_ 32 33#32),
    binary main_v9 main_c_12 main_v14 (addi : (⟨S_, .i32⟩ : BufTy).Contents (Elt F) → (⟨S_, .i32⟩ : BufTy).Contents (Elt F) → (⟨S_, .i32⟩ : BufTy).Contents (Elt F)),
    ternary main_v13 main_v14 main_v9 main_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_13 (constantI S_ 32 0#32),
    nullary main_c_14 (constantI S_ 32 0#32),
    binary main_c_13 main_c_14 main_v16 (cmpi .slt : (⟨S_, .i32⟩ : BufTy).Contents (Elt F) → (⟨S_, .i32⟩ : BufTy).Contents (Elt F) → (⟨S_, .i1⟩ : BufTy).Contents (Elt F)),
    nullary main_c_15 (constantI S_ 32 0#32),
    nullary main_c_16 (constantI S_ 32 262144#32),
    binary main_c_15 main_c_16 main_v17 (addi : (⟨S_, .i32⟩ : BufTy).Contents (Elt F) → (⟨S_, .i32⟩ : BufTy).Contents (Elt F) → (⟨S_, .i32⟩ : BufTy).Contents (Elt F)),
    nullary main_c_17 (constantI S_ 32 0#32),
    ternary main_v16 main_v17 main_c_17 main_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The last two: the dynamic slice and the reshape. -/
abbrev opsB : List (HloOp τ sig (Elt F)) :=
  [ unaryIndexed main_v5 ![main_v12, main_v15, main_v18] ⟨S_, .i32⟩ main_v19 ((fun x i => Host.dynamicSlice S4x1x262144 x (fun k => (i k (Shape.Idx.first h_S_)).toInt) sliceFits_S4x33x262144_S4x1x262144) : (⟨S4x33x262144, .f32⟩ : BufTy).Contents (Elt F) → (Fin 3 → (⟨S_, .i32⟩ : BufTy).Contents (Elt F)) → (⟨S4x1x262144, .f32⟩ : BufTy).Contents (Elt F)),
    reshape main_v19 main_v20 rfl shapeCasts_S4x1x262144_S4x262144 ]

theorem ops_split : (ops : List (HloOp τ sig (Elt F))) = opsA ++ opsB := rfl

-- 85 binds re-associated: the rewrite under the chain recurses once per statement
set_option maxRecDepth 4096 in
set_option maxHeartbeats 4000000 in
/-- @main is that straight line: the callees' definitions unfolded at their calls and the call records at their
    fields, both sides are one chain of `hlo` steps once sequencing is re-associated. -/
theorem main_eq (c : Dev nD) : main (F := F) c = seq ops := by
  simp only [main, fn_remainder.body, fn_remainder_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub .., nullary_bufs_sub .., binary_bufs_sub .., nullary_bufs_sub .., binary_bufs_sub .., ternary_bufs_sub .., unary_bufs_sub .., ternary_bufs_sub .., nullary_bufs_sub .., binary_bufs_sub .., nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub .., nullary_bufs_sub .., binary_bufs_sub .., nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Two lines one after the other fold as their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) : after ops V = after opsB (after opsA V) := by
  rw [ops_split, after_append]

end Cert.ReferenceIdeal.RefRun

end
-- ==== Proof.RefRead.lean ====
/-
  Reads of the three array operations of the reference at an index given by its coordinates.

  A scatter whose body returns the update leaves alone every operand element that no update lands on; the scatter
  here writes one whole plane of the ring, the plane numbered by its one index, so at index 7 it leaves plane 9 as it
  was. A dynamic slice of sizes 4 × 1 × 262144 at starts (0, 9, 0) is plane 9, and the reshape to 4 × 262144 drops the
  unit axis.
-/
import proofs.«203186_g146028888480_cont_week2b_1412_22_alg».proof.Proof.Gen.ReferenceIdeal
import proofs.«203186_g146028888480_cont_week2b_1412_22_alg».proof.Proof.Spec
import Idealize.ShloMosaic.Lib.ValueIdx
import Idealize.ShloMosaic.Lib.Pipeline.Value

namespace Cert.ReferenceIdeal.RefRun

open Cert.ReferenceIdeal Cert.ReferenceIdeal.Gen Idealize.ShloMosaic

/-- A scatter read at an operand index no update lands on is the operand there: every step of the fold over the
    updates either writes another index or drops its update. -/
theorem scatter_apply_of_forall_ne {α : Type} {s si u : Shape} {w : Nat} (d : ScatterDims s si u) (f : α → α → α)
    (x : s.Idx → α) (idx : IVec si w) (upd : u.Idx → α) (i : s.Idx)
    (h : ∀ j : u.Idx, d.resultIdx? j idx ≠ some i) : Host.scatter d f x idx upd i = x i := by
  unfold Host.scatter
  have key : ∀ (l : List (Fin u.numel)) (r : s.Idx → α), r i = x i →
      (l.foldl (fun r n =>
        match d.resultIdx? (u.rowMajor.symm n) idx with
        | some i => fun i' => if i' = i then f (r i) (upd (u.rowMajor.symm n)) else r i'
        | none => r) r) i = x i := by
    intro l
    induction l with
    | nil => intro r hr; exact hr
    | cons n l ih =>
      intro r hr
      rw [List.foldl_cons]
      apply ih
      generalize hres : d.resultIdx? (u.rowMajor.symm n) idx = res
      cases res with
      | none => exact hr
      | some i0 =>
        have hne : i ≠ i0 := fun e => h _ (e ▸ hres)
        show (if i = i0 then _ else r i) = x i
        rw [if_neg hne]; exact hr
  exact key _ x rfl

/-- The ring's scatter with its index at 7 writes only plane 7: read at plane 9 it is the ring. -/
theorem scatter_at_slot {α : Type} (x : S4x33x262144.Idx → α) (upd : S4x262144.Idx → α) (a : Fin 4) (k : Fin 262144) :
    Host.scatter scatter_S4x33x262144_S1_S4x262144_01_1_1_0 (fun _ b => b) x (fun _ => 7#32 : IVec S1 32) upd
        (ValueIdx.ix3 a Cert.Spec.slot k)
      = x (ValueIdx.ix3 a Cert.Spec.slot k) := by
  apply scatter_apply_of_forall_ne
  intro j hj
  unfold ScatterDims.resultIdx? at hj
  split at hj
  · have heq := Option.some.inj hj
    have h1 : ((scatter_S4x33x262144_S1_S4x262144_01_1_1_0.start j (fun _ => 7#32 : IVec S1 32) 1
        + scatter_S4x33x262144_S1_S4x262144_01_1_1_0.window j 1).toNat) = 9 :=
      congrArg Fin.val (congrFun heq 1)
    have hs : scatter_S4x33x262144_S1_S4x262144_01_1_1_0.start j (fun _ => 7#32 : IVec S1 32) 1 = 7 := by
      unfold ScatterDims.start
      rw [dif_pos (by decide)]
      rfl
    have hw : scatter_S4x33x262144_S1_S4x262144_01_1_1_0.window j 1 = 0 := by
      unfold ScatterDims.window
      rw [dif_neg (by decide)]
    rw [hs, hw] at h1
    omega
  · exact absurd hj (by simp)

/-- The broadcast of a scalar to one element is the constant function. -/
theorem bcast_const {α : Type} (v : α) :
    broadcastInDim S1 ![] bcast_S_S1 (fun _ : S_.Idx => v) = fun _ => v := rfl

/-- The slice of sizes 4 × 1 × 262144 at starts (0, 9, 0), reshaped to 4 × 262144, read at (a, k): the operand at
    (a, 9, k). -/
theorem slice_reshape_apply {α : Type} (y : S4x33x262144.Idx → α) (st : Fin 3 → Int)
    (h0 : st 0 = 0) (h1 : st 1 = 9) (h2 : st 2 = 0) (a : Fin 4) (k : Fin 262144) :
    shapeCast S4x262144 (Host.dynamicSlice S4x1x262144 y st sliceFits_S4x33x262144_S4x1x262144)
        shapeCasts_S4x1x262144_S4x262144 (ValueIdx.ix2 a k)
      = y (ValueIdx.ix3 a Cert.Spec.slot k) := by
  rw [shapeCast_apply _ _ _ (ValueIdx.ix3 a (0 : Fin 1) k) (by
    rw [Shape.rowMajor_val_three, Shape.rowMajor_val_two]
    simp)]
  unfold Host.dynamicSlice extractStridedSlice
  refine congrArg y (funext fun ax => ?_)
  match ax with
  | ⟨0, _⟩ => apply Fin.ext; simp [h0]
  | ⟨1, _⟩ => apply Fin.ext; simp [h1]
  | ⟨2, _⟩ => apply Fin.ext; simp [h2]

end Cert.ReferenceIdeal.RefRun
-- ==== Proof.RefValue.lean ====
/-
  The reference's result at ptr = 7.

  Everything the reference does to the ring besides moving data is integer arithmetic on the pointer, and at
  ptr = 7 it is arithmetic on literals: the plane the scatter overwrites is 7 mod 33 = 7, and the plane the slice reads
  is ((7 + 1) mod 33 - 32) mod 33, each mod with jnp's sign convention and then normalised once more: 8 - 32 = -24,
  whose truncated remainder by 33 is -24, negative while the divisor is positive, so 33 is added: 9. The scatter writes
  plane 7 only, so plane 9 of the scattered ring is plane 9 of the ring; the slice of sizes 4 × 1 × 262144 at (0, 9, 0)
  is that plane, and the reshape drops the unit axis. No float is computed anywhere.

  The fold of the 85 operations is read in two parts: the first 83 leave the three start indices at (0, 9, 0) and the
  scattered ring at plane 9 equal to the ring; the last two, over any contents with those start indices, read the
  sliced buffer's plane 9.
-/
import proofs.«203186_g146028888480_cont_week2b_1412_22_alg».proof.Proof.RefRun
import proofs.«203186_g146028888480_cont_week2b_1412_22_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The ring's scatter with its one index the broadcast of a scalar that is 7, read at plane 9: the ring. -/
theorem scatter_bcast_at_slot {α : Type} (x : S4x33x262144.Idx → α) (upd : S4x262144.Idx → α) (t : S_.Idx → BitVec 32)
    (ht : t = fun _ => 7#32) (a : Fin 4) (k : Fin 262144) :
    Host.scatter scatter_S4x33x262144_S1_S4x262144_01_1_1_0 (fun _ b => b) x (broadcastInDim S1 ![] bcast_S_S1 t) upd
        (ValueIdx.ix3 a Cert.Spec.slot k)
      = x (ValueIdx.ix3 a Cert.Spec.slot k) := by
  subst ht
  rw [bcast_const]
  exact scatter_at_slot x upd a k

/-- The first start index of the slice: 0 < 0 is false, so the select takes the constant 0. -/
theorem v12_eq (V : Valuation τ sig (Elt Ideal)) : after opsA V (main_v12 : DevRef τ sig) = fun _ => 0#32 := by
  after_results_simp
  funext i
  rfl

/-- The third start index, likewise 0. -/
theorem v18_eq (V : Valuation τ sig (Elt Ideal)) : after opsA V (main_v18 : DevRef τ sig) = fun _ => 0#32 := by
  after_results_simp
  funext i
  rfl

/-- The middle start index at ptr = 7: (7 + 1) mod 33 = 8, 8 - 32 = -24, whose remainder by 33 is -24, of the sign
    opposite to the divisor's and non-zero, so 33 is added back: 9; 9 is not negative, so the last select keeps it. -/
theorem v15_eq (V : Valuation τ sig (Elt Ideal)) (h : V (main_arg2 : DevRef τ sig) = fun _ => 7#32) :
    after opsA V (main_v15 : DevRef τ sig) = fun _ => 9#32 := by
  after_results_simp
  simp only [h]
  funext i
  decide +revert +kernel

/-- The ring after the scatter, read at plane 9 at ptr = 7: the scatter's index is 7 mod 33 = 7 (non-negative, so
    the select keeps it), and plane 9 is not the plane it writes. -/
theorem v5_read (V : Valuation τ sig (Elt Ideal)) (h : V (main_arg2 : DevRef τ sig) = fun _ => 7#32) (a : Fin 4) (k : Fin 262144) :
    (after opsA V (main_v5 : DevRef τ sig) : (⟨S4x33x262144, .f32⟩ : BufTy).Contents (Elt Ideal)) (ValueIdx.ix3 a Cert.Spec.slot k)
      = (V (main_arg1 : DevRef τ sig) : (⟨S4x33x262144, .f32⟩ : BufTy).Contents (Elt Ideal)) (ValueIdx.ix3 a Cert.Spec.slot k) := by
  after_results_simp
  simp only [h]
  apply scatter_bcast_at_slot
  funext i
  decide +revert +kernel

/-- The last two operations over any contents with the three start indices at (0, 9, 0): the result at (a, k) is the
    sliced buffer at (a, 9, k). -/
theorem opsB_read (W : Valuation τ sig (Elt Ideal))
    (e12 : W (main_v12 : DevRef τ sig) = fun _ => 0#32) (e15 : W (main_v15 : DevRef τ sig) = fun _ => 9#32)
    (e18 : W (main_v18 : DevRef τ sig) = fun _ => 0#32) (a : Fin 4) (k : Fin 262144) :
    (after opsB W (main_v20 : DevRef τ sig) : (⟨S4x262144, .f32⟩ : BufTy).Contents (Elt Ideal)) (ValueIdx.ix2 a k)
      = (W (main_v5 : DevRef τ sig) : (⟨S4x33x262144, .f32⟩ : BufTy).Contents (Elt Ideal)) (ValueIdx.ix3 a Cert.Spec.slot k) := by
  after_results
  refine slice_reshape_apply _ _ ?_ ?_ ?_ a k
  · show BitVec.toInt ((W (main_v12 : DevRef τ sig) : (⟨S_, .i32⟩ : BufTy).Contents (Elt Ideal)) (Shape.Idx.first h_S_)) = 0
    rw [e12]; rfl
  · show BitVec.toInt ((W (main_v15 : DevRef τ sig) : (⟨S_, .i32⟩ : BufTy).Contents (Elt Ideal)) (Shape.Idx.first h_S_)) = 9
    rw [e15]; rfl
  · show BitVec.toInt ((W (main_v18 : DevRef τ sig) : (⟨S_, .i32⟩ : BufTy).Contents (Elt Ideal)) (Shape.Idx.first h_S_)) = 0
    rw [e18]; rfl

/-- The reference's result at ptr = 7, entry (a, k): the ring's entry (a, 9, k). -/
theorem v20_read (V : Valuation τ sig (Elt Ideal)) (h : V (main_arg2 : DevRef τ sig) = fun _ => 7#32) (a : Fin 4) (k : Fin 262144) :
    (after ops V (main_v20 : DevRef τ sig) : (⟨S4x262144, .f32⟩ : BufTy).Contents (Elt Ideal)) (ValueIdx.ix2 a k)
      = (V (main_arg1 : DevRef τ sig) : (⟨S4x33x262144, .f32⟩ : BufTy).Contents (Elt Ideal)) (ValueIdx.ix3 a Cert.Spec.slot k) := by
  rw [after_ops, opsB_read _ (v12_eq V) (v15_eq V h) (v18_eq V), v5_read V h]

/-- The reference's result at ptr = 7 is the delayed plane of the ring it was given. -/
theorem v20_eq (V : Valuation τ sig (Elt Ideal)) (h : V (main_arg2 : DevRef τ sig) = fun _ => 7#32) :
    (after ops V (main_v20 : DevRef τ sig) : (⟨S4x262144, .f32⟩ : BufTy).Contents (Elt Ideal))
      = Cert.Spec.delayed (V (main_arg1 : DevRef τ sig) : (⟨S4x33x262144, .f32⟩ : BufTy).Contents (Elt Ideal)) := by
  refine funext fun (j : S4x262144.Idx) => ?_
  obtain ⟨a, k, rfl⟩ : ∃ (a : Fin 4) (k : Fin 262144), j = ValueIdx.ix2 a k := ⟨j 0, j 1, ValueIdx.eq_ix2 j⟩
  exact v20_read V h a k

theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp
theorem arg2_eq (V : Valuation τ sig (Elt Ideal)) : after ops V (main_arg2 : DevRef τ sig) = V (main_arg2 : DevRef τ sig) := by
  after_results_simp

/-- The reference's run at ptr = 7: every weakly fair execution of @main from zero counters terminates with the result
    buffer at the delayed plane of the ring as it was given, and the three arguments unchanged. -/
theorem run_of_ptr
    (m : (ℓ : Loc Cert.ReferenceIdeal.nD Cert.ReferenceIdeal.τ Cert.ReferenceIdeal.sig) → Buf (Elt Ideal) ℓ)
    (g : Dev Cert.ReferenceIdeal.nD → PrngReg)
    (hptr : ∀ c : Dev Cert.ReferenceIdeal.nD, m ((c.tc : Thread Cert.ReferenceIdeal.nD Cert.ReferenceIdeal.τ).loc Cert.ReferenceIdeal.main_arg2) = fun _ => 7#32) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v20)
            = Cert.Spec.delayed (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ hr c => ⟨(hr c main_v20).trans (v20_eq (launchContents m c) (hptr c)),
      (hr c main_arg0).trans (arg0_eq _), (hr c main_arg1).trans (arg1_eq _), (hr c main_arg2).trans (arg2_eq _)⟩)
    (run_all m g)

end Cert.ReferenceIdeal.RefRun

end
-- ==== Proof.lean ====
/-
  The ring buffer holds, for each of 4 sources, 33 time planes of 262144 values. The reference overwrites plane
  (ptr mod 33) with the new spikes and returns plane ((ptr + 1) mod 33 - 32) mod 33 of the result; that is plane
  (ptr + 2) mod 33, never the plane just written, so the result is the given ring's plane (ptr + 2) mod 33. The kernel
  re-lays the ring as (plane, row block of 128 positions, source, lane), has 32 vector subcores each move 64 row blocks of
  plane (ptr + 2) mod 33 to the output through two scratch buffers, and re-lays the output as (source, position). The
  precondition pins ptr to 7, where both are plane 9 (Proof/Spec.lean: `delayed`). No floating-point operation occurs, so
  the two programs agree at the ideal instance for every ring whatever: finiteness of the inputs is never used.
  The pieces: Proof/PrePtr.lean (the precondition gives ptr = 7), Proof/RefRun.lean, RefRead.lean, RefValue.lean (the
  reference's run and its value), Proof/OutRows*.lean (the subcores' output halves are disjoint and cover the output),
  Proof/Word*.lean (the word a subcore reads is 7), Proof/Halves*.lean (what a half ends holding), Proof/K*Tile.lean (one
  subcore's task), Proof/K*Launch.lean (the program's run from the tasks), Proof/HostBridge.lean (the re-layings around
  the call compose to plane 9). The word-level program and the idealized one have the same text, so their runs are the
  same proof at the two instances.
-/
import proofs.«203186_g146028888480_cont_week2b_1412_22_alg».proof.Defs
import proofs.«203186_g146028888480_cont_week2b_1412_22_alg».proof.Proof.Gen.Kernel
import proofs.«203186_g146028888480_cont_week2b_1412_22_alg».proof.Proof.Gen.Kernel.Skeleton
import proofs.«203186_g146028888480_cont_week2b_1412_22_alg».proof.Proof.Gen.KernelIdeal
import proofs.«203186_g146028888480_cont_week2b_1412_22_alg».proof.Proof.Gen.KernelIdeal.Skeleton
import proofs.«203186_g146028888480_cont_week2b_1412_22_alg».proof.Proof.Gen.ReferenceIdeal
import proofs.«203186_g146028888480_cont_week2b_1412_22_alg».proof.Proof.Gen.Pre_input_domain
import proofs.«203186_g146028888480_cont_week2b_1412_22_alg».proof.Proof.PrePtr
import proofs.«203186_g146028888480_cont_week2b_1412_22_alg».proof.Proof.KBitsLaunch
import proofs.«203186_g146028888480_cont_week2b_1412_22_alg».proof.Proof.KIdealLaunch
import proofs.«203186_g146028888480_cont_week2b_1412_22_alg».proof.Proof.RefValue
import Idealize.ShloMosaic.Adequacy
import Idealize.ShloMosaic.Init

noncomputable section

namespace Cert.Proof

open Idealize.ShloMosaic Idealize.SL.Sem

/-- Under the precondition the pointer is 7 on every device: the word-level program's memory, -/
theorem ptr_Kernel (m : (ℓ : Loc Cert.Kernel.nD Cert.Kernel.τ Cert.Kernel.sig) → Buf (Elt Bits) ℓ) (h : Cert.Pre_Kernel m) (d : Dev Cert.Kernel.nD) :
    m (Cert.Kernel.Run.a2Loc d) = fun _ => (7#32 : BitVec 32) :=
  Cert.PrePtr.ptr_eq (F := Bits) _ _ _ (h d)

/-- the idealized program's, -/
theorem ptr_KernelIdeal (m : (ℓ : Loc Cert.KernelIdeal.nD Cert.KernelIdeal.τ Cert.KernelIdeal.sig) → Buf (Elt Ideal) ℓ) (h : Cert.Pre_KernelIdeal m)
    (d : Dev Cert.KernelIdeal.nD) : m (Cert.KernelIdeal.Run.a2Loc d) = fun _ => (7#32 : BitVec 32) :=
  Cert.PrePtr.ptr_eq (F := Ideal) _ _ _ (h d)

/-- the reference's. -/
theorem ptr_ReferenceIdeal (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) :
    m ((c.tc : Thread Cert.ReferenceIdeal.nD Cert.ReferenceIdeal.τ).loc Cert.ReferenceIdeal.main_arg2) = fun _ => (7#32 : BitVec 32) :=
  Cert.PrePtr.ptr_eq (F := Ideal) _ _ _ (h c)

/-- The word-level program runs to the end, nothing faulting, its arguments unchanged: its run with the result dropped. -/
theorem frame_Kernel : Cert.frame_Kernel := fun m g hpre =>
  (θ_run Cert.Kernel.defs _ _).mono (fun _ h c => ⟨(h c).2.1, (h c).2.2.1, (h c).2.2.2⟩)
    (Cert.Kernel.Run.run_main (F := Bits) m g (ptr_Kernel m hpre))

/-- The same of the idealized program. -/
theorem frame_KernelIdeal : Cert.frame_KernelIdeal := fun m g hpre =>
  (θ_run Cert.KernelIdeal.defs _ _).mono (fun _ h c => ⟨(h c).2.1, (h c).2.2.1, (h c).2.2.2⟩)
    (Cert.KernelIdeal.Run.run_main (F := Ideal) m g (ptr_KernelIdeal m hpre))

/-- The reference's frame: its run with the result dropped. -/
theorem frame_ReferenceIdeal : Cert.frame_ReferenceIdeal := fun m g hpre =>
  (θ_run Cert.ReferenceIdeal.defs _ _).mono (fun _ h c => (h c).2)
    (Cert.ReferenceIdeal.RefRun.run_of_ptr m g (ptr_ReferenceIdeal m hpre))

/-- The ideal pass rewrote nothing. -/
theorem preserves : Cert.preserves_Kernel_KernelIdeal := trivial

/-- Both idealized programs end with the ring's plane 9, of rings that agree. -/
theorem algebraic : Cert.algebraic_KernelIdeal_ReferenceIdeal := by
  intro m g m' g' hpre hagree
  refine ⟨fun c => Cert.Spec.delayed (m (Cert.KernelIdeal.Run.a1Loc c)),
    (θ_run Cert.KernelIdeal.defs _ _).mono (fun _ h c => ⟨(h c).1, (h c).2.1, (h c).2.2.1, (h c).2.2.2⟩)
      (Cert.KernelIdeal.Run.run_main (F := Ideal) m g (ptr_KernelIdeal m hpre)), ?_⟩
  have hptr' : ∀ c : Dev Cert.ReferenceIdeal.nD,
      m' ((c.tc : Thread Cert.ReferenceIdeal.nD Cert.ReferenceIdeal.τ).loc Cert.ReferenceIdeal.main_arg2) = fun _ => (7#32 : BitVec 32) :=
    fun c => (hagree c).2.2.trans (ptr_KernelIdeal m hpre c)
  refine (θ_run Cert.ReferenceIdeal.defs _ _).mono (fun _ h c => ⟨?_, (h c).2.1, (h c).2.2.1, (h c).2.2.2⟩)
    (Cert.ReferenceIdeal.RefRun.run_of_ptr m' g' hptr')
  rw [(h c).1, (hagree c).2.1]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
